-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S500000x32x3 : Shape := ⟨3, ![500000, 32, 3]⟩
abbrev S5x3 : Shape := ⟨2, ![5, 3]⟩
abbrev S5 : Shape := ⟨1, ![5]⟩
abbrev S5x5 : Shape := ⟨2, ![5, 5]⟩
abbrev S1x5 : Shape := ⟨2, ![1, 5]⟩
abbrev S1 : Shape := ⟨1, ![1]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S500000x32x3 : S_.BroadcastsInDim S500000x32x3 (![] : Fin 0 → Fin S500000x32x3.rank)
  reducesTo_S500000x32x3_S_d0_1_2 : S500000x32x3.ReducesTo [0, 1, 2] S_
  bcast_S_S5x3 : S_.BroadcastsInDim S5x3 (![] : Fin 0 → Fin S5x3.rank)
  reducesTo_S5x3_S_d0_1 : S5x3.ReducesTo [0, 1] S_
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S5x5 .f32) (main_arg5 : FVec F S5 .f32) (main_arg6 : FVec F S1x5 .f32) (main_arg7 : FVec F S1 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x5 .f32 := Host.absf main_arg4
  let main_cst_6 : FVec F S_ .f32 := constant S_ .f32 0x7F800000#32
  let main_v20 : FVec F S5x5 .f32 := broadcastInDim S5x5 ![] bcast_S_S5x5 main_cst_6
  let main_v21 : IVec S5x5 1 := cmpf .olt main_v19 main_v20
  let main_c_7 : IVec S_ 1 := constantI S_ 1 1#1
  let main_v22 : IVec S_ 1 := (fun x v => Host.reduce IntOp.andi x v reducesTo_S5x5_S_d0_1 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_v29 : FVec F S1x5 .f32 := Host.absf main_arg6
  let main_cst_10 : FVec F S_ .f32 := constant S_ .f32 0x7F800000#32
  let main_v30 : FVec F S1x5 .f32 := broadcastInDim S1x5 ![] bcast_S_S1x5 main_cst_10
  let main_v31 : IVec S1x5 1 := cmpf .olt main_v29 main_v30
  let main_c_11 : IVec S_ 1 := constantI S_ 1 1#1
  let main_v32 : IVec S_ 1 := (fun x v => Host.reduce IntOp.andi x v reducesTo_S1x5_S_d0_1 h_S_) main_v31 main_c_11
  let main_v33 : IVec S_ 1 := andi main_v28 main_v32
  fn_part2 (F := F) main_arg7 main_v33

def fn {F : FTy → Type} [FloatOps F] (main_arg0 : FVec F S500000x3 .f32) (main_arg1 : FVec F S500000x32x3 .f32) (main_arg2 : FVec F S5x3 .f32) (main_arg3 : FVec F S5 .f32) (main_arg4 : FVec F S5x5 .f32) (main_arg5 : FVec F S5 .f32) (main_arg6 : FVec F S1x5 .f32) (main_arg7 : FVec F S1 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x32x3 .f32 := Host.absf main_arg1
  let main_cst_0 : FVec F S_ .f32 := constant S_ .f32 0x7F800000#32
  let main_v5 : FVec F S500000x32x3 .f32 := broadcastInDim S500000x32x3 ![] bcast_S_S500000x32x3 main_cst_0
  let main_v6 : IVec S500000x32x3 1 := cmpf .olt main_v4 main_v5
  let main_c_1 : IVec S_ 1 := constantI S_ 1 1#1
  let main_v7 : IVec S_ 1 := (fun x v => Host.reduce IntOp.andi x v reducesTo_S500000x32x3_S_d0_1_2 h_S_) main_v6 main_c_1
  let main_v8 : IVec S_ 1 := andi main_v3 main_v7
  let main_v9 : FVec F S5x3 .f32 := Host.absf main_arg2
  let main_cst_2 : FVec F S_ .f32 := constant S_ .f32 0x7F800000#32
  let main_v10 : FVec F S5x3 .f32 := broadcastInDim S5x3 ![] bcast_S_S5x3 main_cst_2
  let main_v11 : IVec S5x3 1 := cmpf .olt main_v9 main_v10
  let main_c_3 : IVec S_ 1 := constantI S_ 1 1#1
  let main_v12 : IVec S_ 1 := (fun x v => Host.reduce IntOp.andi x v reducesTo_S5x3_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_arg7 main_v13 main_v16
-- ==== Kernel.lean ====
abbrev S500000x3 : Shape := ⟨2, ![500000, 3]⟩
abbrev S500000x32x3 : Shape := ⟨3, ![500000, 32, 3]⟩
abbrev S5x3 : Shape := ⟨2, ![5, 3]⟩
abbrev S5 : Shape := ⟨1, ![5]⟩
abbrev S5x5 : Shape := ⟨2, ![5, 5]⟩
abbrev S1x5 : Shape := ⟨2, ![1, 5]⟩
abbrev S1 : Shape := ⟨1, ![1]⟩
abbrev S500000x96 : Shape := ⟨2, ![500000, 96]⟩
abbrev S32x32 : Shape := ⟨2, ![32, 32]⟩
abbrev S_ : Shape := ⟨0, ![]⟩
abbrev S3x3 : Shape := ⟨2, ![3, 3]⟩
abbrev S3x1 : Shape := ⟨2, ![3, 1]⟩
abbrev S32x1x32x1 : Shape := ⟨4, ![32, 1, 32, 1]⟩
abbrev S1x3x1x1 : Shape := ⟨4, ![1, 3, 1, 1]⟩
abbrev S32x3x32x1 : Shape := ⟨4, ![32, 3, 32, 1]⟩
abbrev S96x32 : Shape := ⟨2, ![96, 32]⟩
abbrev S1x3 : Shape := ⟨2, ![1, 3]⟩
abbrev S1x1x1x3 : Shape := ⟨4, ![1, 1, 1, 3]⟩
abbrev S32x1x32x3 : Shape := ⟨4, ![32, 1, 32, 3]⟩
abbrev S32x96 : Shape := ⟨2, ![32, 96]⟩
abbrev S1x3x1x3 : Shape := ⟨4, ![1, 3, 1, 3]⟩
abbrev S32x3x1x3 : Shape := ⟨4, ![32, 3, 1, 3]⟩
abbrev S96x3 : Shape := ⟨2, ![96, 3]⟩
abbrev S3x5 : Shape := ⟨2, ![3, 5]⟩
abbrev S1x3x1x5 : Shape := ⟨4, ![1, 3, 1, 5]⟩
abbrev S32x3x32x5 : Shape := ⟨4, ![32, 3, 32, 5]⟩
abbrev S96x160 : Shape := ⟨2, ![96, 160]⟩
abbrev S1x5x1x5 : Shape := ⟨4, ![1, 5, 1, 5]⟩
abbrev S32x5x32x5 : Shape := ⟨4, ![32, 5, 32, 5]⟩
abbrev S160x160 : Shape := ⟨2, ![160, 160]⟩
abbrev S5x1 : Shape := ⟨2, ![5, 1]⟩
abbrev S1x5x1x1 : Shape := ⟨4, ![1, 5, 1, 1]⟩
abbrev S32x5x32x1 : Shape := ⟨4, ![32, 5, 32, 1]⟩
abbrev S160x32 : Shape := ⟨2, ![160, 32]⟩
abbrev S32x5 : Shape := ⟨2, ![32, 5]⟩
abbrev S160 : Shape := ⟨1, ![160]⟩
abbrev S1x160 : Shape := ⟨2, ![1, 160]⟩
abbrev S1x1 : Shape := ⟨2, ![1, 1]⟩
abbrev S32x1 : Shape := ⟨2, ![32, 1]⟩
abbrev S32 : Shape := ⟨1, ![32]⟩
abbrev S1x32 : Shape := ⟨2, ![1, 32]⟩
abbrev S2000x3 : Shape := ⟨2, ![2000, 3]⟩
abbrev S2000x96 : Shape := ⟨2, ![2000, 96]⟩
abbrev S2000x32 : Shape := ⟨2, ![2000, 32]⟩
abbrev S2000x160 : Shape := ⟨2, ![2000, 160]⟩
abbrev S2000 : Shape := ⟨1, ![2000]⟩
abbrev S2000x1 : Shape := ⟨2, ![2000, 1]⟩

abbrev nBuf : Space → Nat
  | .hbm => 76
  | .vmem => 15
  | .smem => 0
  | _ => 0

abbrev bufTy : (tb : Table) → Fin (tcTables nBuf tb) → BufTy
  | .hbm, ⟨0, _⟩ => ⟨S500000x3, .f32⟩
  | .hbm, ⟨1, _⟩ => ⟨S500000x32x3, .f32⟩
  | .hbm, ⟨2, _⟩ => ⟨S5x3, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S1x5, .f32⟩
  | .hbm, ⟨7, _⟩ => ⟨S1, .f32⟩
  | .hbm, ⟨8, _⟩ => ⟨S500000x96, .f32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S32x32, .i1⟩
  | .hbm, ⟨15, _⟩ => ⟨S32x32, .f32⟩
  | .hbm, ⟨16, _⟩ => ⟨S3x3, .i32⟩
  | .hbm, ⟨17, _⟩ => ⟨S3x3, .i32⟩
  | .hbm, ⟨18, _⟩ => ⟨S_, .i32⟩
  | .hbm, ⟨19, _⟩ => ⟨S3x3, .i32⟩
  | .hbm, ⟨20, _⟩ => ⟨S3x3, .i32⟩
  | .hbm, ⟨21, _⟩ => ⟨S3x3, .i1⟩
  | .hbm, ⟨22, _⟩ => ⟨S3x3, .f32⟩
  | .hbm, ⟨23, _⟩ => ⟨S_, .f32⟩
  | .hbm, ⟨24, _⟩ => ⟨S3x1, .f32⟩
  | .hbm, ⟨25, _⟩ => ⟨S32x1x32x1, .f32⟩
  | .hbm, ⟨26, _⟩ => ⟨S1x3x1x1, .f32⟩
  | .hbm, ⟨27, _⟩ => ⟨S32x3x32x1, .f32⟩
  | .hbm, ⟨28, _⟩ => ⟨S32x3x32x1, .f32⟩
  | .hbm, ⟨29, _⟩ => ⟨S32x3x32x1, .f32⟩
  | .hbm, ⟨30, _⟩ => ⟨S96x32, .f32⟩
  | .hbm, ⟨31, _⟩ => ⟨S_, .f32⟩
  | .hbm, ⟨32, _⟩ => ⟨S1x3, .f32⟩
  | .hbm, ⟨33, _⟩ => ⟨S32x1x32x1, .f32⟩
  | .hbm, ⟨34, _⟩ => ⟨S1x1x1x3, .f32⟩
  | .hbm, ⟨35, _⟩ => ⟨S32x1x32x3, .f32⟩
  | .hbm, ⟨36, _⟩ => ⟨S32x1x32x3, .f32⟩
  | .hbm, ⟨37, _⟩ => ⟨S32x1x32x3, .f32⟩
  | .hbm, ⟨38, _⟩ => ⟨S32x96, .f32⟩
  | .hbm, ⟨39, _⟩ => ⟨S1x3x1x3, .f32⟩
  | .hbm, ⟨40, _⟩ => ⟨S32x3x1x3, .f32⟩
  | .hbm, ⟨41, _⟩ => ⟨S96x3, .f32⟩
  | .hbm, ⟨42, _⟩ => ⟨S3x5, .f32⟩
  | .hbm, ⟨43, _⟩ => ⟨S32x1x32x1, .f32⟩
  | .hbm, ⟨44, _⟩ => ⟨S1x3x1x5, .f32⟩
  | .hbm, ⟨45, _⟩ => ⟨S32x3x32x5, .f32⟩
  | .hbm, ⟨46, _⟩ => ⟨S32x3x32x5, .f32⟩
  | .hbm, ⟨47, _⟩ => ⟨S32x3x32x5, .f32⟩
  | .hbm, ⟨48, _⟩ => ⟨S96x160, .f32⟩
  | .hbm, ⟨49, _⟩ => ⟨S5x5, .f32⟩
  | .hbm, ⟨50, _⟩ => ⟨S32x1x32x1, .f32⟩
  | .hbm, ⟨51, _⟩ => ⟨S1x5x1x5, .f32⟩
  | .hbm, ⟨52, _⟩ => ⟨S32x5x32x5, .f32⟩
  | .hbm, ⟨53, _⟩ => ⟨S32x5x32x5, .f32⟩
  | .hbm, ⟨54, _⟩ => ⟨S32x5x32x5, .f32⟩
  | .hbm, ⟨55, _⟩ => ⟨S160x160, .f32⟩
  | .hbm, ⟨56, _⟩ => ⟨S5x1, .f32⟩
  | .hbm, ⟨57, _⟩ => ⟨S32x1x32x1, .f32⟩
  | .hbm, ⟨58, _⟩ => ⟨S1x5x1x1, .f32⟩
  | .hbm, ⟨59, _⟩ => ⟨S32x5x32x1, .f32⟩
  | .hbm, ⟨60, _⟩ => ⟨S32x5x32x1, .f32⟩
  | .hbm, ⟨61, _⟩ => ⟨S32x5x32x1, .f32⟩
  | .hbm, ⟨62, _⟩ => ⟨S160x32, .f32⟩
  | .hbm, ⟨63, _⟩ => ⟨S1x5, .f32⟩
  | .hbm, ⟨64, _⟩ => ⟨S32x5, .f32⟩
  | .hbm, ⟨65, _⟩ => ⟨S160, .f32⟩
  | .hbm, ⟨66, _⟩ => ⟨S1x160, .f32⟩
  | .hbm, ⟨67, _⟩ => ⟨S1x5, .f32⟩
  | .hbm, ⟨68, _⟩ => ⟨S32x5, .f32⟩
  | .hbm, ⟨69, _⟩ => ⟨S160, .f32⟩
  | .hbm, ⟨70, _⟩ => ⟨S1x160, .f32⟩
  | .hbm, ⟨71, _⟩ => ⟨S1x1, .f32⟩
  | .hbm, ⟨72, _⟩ => ⟨S32x1, .f32⟩
  | .hbm, ⟨73, _⟩ => ⟨S32, .f32⟩
  | .hbm, ⟨74, _⟩ => ⟨S1x32, .f32⟩
  | .hbm, ⟨75, _⟩ => ⟨S500000x3, .f32⟩
  | .local _ .vmem, ⟨0, _⟩ => ⟨S96x32, .f32⟩
  | .local _ .vmem, ⟨1, _⟩ => ⟨S32x96, .f32⟩
  | .local _ .vmem, ⟨2, _⟩ => ⟨S96x3, .f32⟩
  | .local _ .vmem, ⟨3, _⟩ => ⟨S96x160, .f32⟩
  | .local _ .vmem, ⟨4, _⟩ => ⟨S1x160, .f32⟩
  | .local _ .vmem, ⟨5, _⟩ => ⟨S160x160, .f32⟩
  | .local _ .vmem, ⟨6, _⟩ => ⟨S1x160, .f32⟩
  | .local _ .vmem, ⟨7, _⟩ => ⟨S160x32, .f32⟩
  | .local _ .vmem, ⟨8, _⟩ => ⟨S1x32, .f32⟩
  | .local _ .vmem, ⟨9, _⟩ => ⟨S2000x3, .f32⟩
  | .local _ .vmem, ⟨10, _⟩ => ⟨S2000x3, .f32⟩
  | .local _ .vmem, ⟨11, _⟩ => ⟨S2000x96, .f32⟩
  | .local _ .vmem, ⟨12, _⟩ => ⟨S2000x96, .f32⟩
  | .local _ .vmem, ⟨13, _⟩ => ⟨S2000x3, .f32⟩
  | .local _ .vmem, ⟨14, _⟩ => ⟨S2000x3, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v21 : Ref sig .tc := ⟨.hbm, 48, rfl⟩
abbrev main_v22 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v23 : Ref sig .tc := ⟨.hbm, 55, rfl⟩
abbrev main_v24 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S160x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S500000x32x3_S500000x96 : S500000x32x3.ShapeCasts S500000x96
  bcast_S_S32x32 : S_.BroadcastsInDim S32x32 (![] : Fin 0 → Fin S32x32.rank)
  bcast_S_S3x3 : S_.BroadcastsInDim S3x3 (![] : Fin 0 → Fin S3x3.rank)
  bcast_S_S3x1 : S_.BroadcastsInDim S3x1 (![] : Fin 0 → Fin S3x1.rank)
  bcast_S32x32_S32x1x32x1_0_2 : S32x32.BroadcastsInDim S32x1x32x1 (![0, 2] : Fin 2 → Fin S32x1x32x1.rank)
  bcast_S3x1_S1x3x1x1_1_3 : S3x1.BroadcastsInDim S1x3x1x1 (![1, 3] : Fin 2 → Fin S1x3x1x1.rank)
  bcast_S32x1x32x1_S32x3x32x1_0_1_2_3 : S32x1x32x1.BroadcastsInDim S32x3x32x1 (![0, 1, 2, 3] : Fin 4 → Fin S32x3x32x1.rank)
  bcast_S1x3x1x1_S32x3x32x1_0_1_2_3 : S1x3x1x1.BroadcastsInDim S32x3x32x1 (![0, 1, 2, 3] : Fin 4 → Fin S32x3x32x1.rank)
  shapeCasts_S32x3x32x1_S96x32 : S32x3x32x1.ShapeCasts S96x32
  bcast_S_S1x3 : S_.BroadcastsInDim S1x3 (![] : Fin 0 → Fin S1x3.rank)
  bcast_S1x3_S1x1x1x3_1_3 : S1x3.BroadcastsInDim S1x1x1x3 (![1, 3] : Fin 2 → Fin S1x1x1x3.rank)
  bcast_S32x1x32x1_S32x1x32x3_0_1_2_3 : S32x1x32x1.BroadcastsInDim S32x1x32x3 (![0, 1, 2, 3] : Fin 4 → Fin S32x1x32x3.rank)
  bcast_S1x1x1x3_S32x1x32x3_0_1_2_3 : S1x1x1x3.BroadcastsInDim S32x1x32x3 (![0, 1, 2, 3] : Fin 4 → Fin S32x1x32x3.rank)
  shapeCasts_S32x1x32x3_S32x96 : S32x1x32x3.ShapeCasts S32x96
  shapeCasts_S3x3_S1x3x1x3 : S3x3.ShapeCasts S1x3x1x3
  bcast_S1x3x1x3_S32x3x1x3_0_1_2_3 : S1x3x1x3.BroadcastsInDim S32x3x1x3 (![0, 1, 2, 3] : Fin 4 → Fin S32x3x1x3.rank)
  shapeCasts_S32x3x1x3_S96x3 : S32x3x1x3.ShapeCasts S96x3
  transposes_S5x3_S3x5_1_0 : S5x3.Transposes [1, 0] S3x5
  bcast_S3x5_S1x3x1x5_1_3 : S3x5.BroadcastsInDim S1x3x1x5 (![1, 3] : Fin 2 → Fin S1x3x1x5.rank)
  bcast_S32x1x32x1_S32x3x32x5_0_1_2_3 : S32x1x32x1.BroadcastsInDim S32x3x32x5 (![0, 1, 2, 3] : Fin 4 → Fin S32x3x32x5.rank)
  bcast_S1x3x1x5_S32x3x32x5_0_1_2_3 : S1x3x1x5.BroadcastsInDim S32x3x32x5 (![0, 1, 2, 3] : Fin 4 → Fin S32x3x32x5.rank)
  shapeCasts_S32x3x32x5_S96x160 : S32x3x32x5.ShapeCasts S96x160
  transposes_S5x5_S5x5_1_0 : S5x5.Transposes [1, 0] S5x5
  bcast_S5x5_S1x5x1x5_1_3 : S5x5.BroadcastsInDim S1x5x1x5 (![1, 3] : Fin 2 → Fin S1x5x1x5.rank)
  bcast_S32x1x32x1_S32x5x32x5_0_1_2_3 : S32x1x32x1.BroadcastsInDim S32x5x32x5 (![0, 1, 2, 3] : Fin 4 → Fin S32x5x32x5.rank)
  bcast_S1x5x1x5_S32x5x32x5_0_1_2_3 : S1x5x1x5.BroadcastsInDim S32x5x32x5 (![0, 1, 2, 3] : Fin 4 → Fin S32x5x32x5.rank)
  shapeCasts_S32x5x32x5_S160x160 : S32x5x32x5.ShapeCasts S160x160
  transposes_S1x5_S5x1_1_0 : S1x5.Transposes [1, 0] S5x1
  bcast_S5x1_S1x5x1x1_1_3 : S5x1.BroadcastsInDim S1x5x1x1 (![1, 3] : Fin 2 → Fin S1x5x1x1.rank)
  bcast_S32x1x32x1_S32x5x32x1_0_1_2_3 : S32x1x32x1.BroadcastsInDim S32x5x32x1 (![0, 1, 2, 3] : Fin 4 → Fin S32x5x32x1.rank)
  bcast_S1x5x1x1_S32x5x32x1_0_1_2_3 : S1x5x1x1.BroadcastsInDim S32x5x32x1 (![0, 1, 2, 3] : Fin 4 → Fin S32x5x32x1.rank)
  shapeCasts_S32x5x32x1_S160x32 : S32x5x32x1.ShapeCasts S160x32
  shapeCasts_S5_S1x5 : S5.ShapeCasts S1x5
  bcast_S1x5_S32x5_0_1 : S1x5.BroadcastsInDim S32x5 (![0, 1] : Fin 2 → Fin S32x5.rank)
  shapeCasts_S32x5_S160 : S32x5.ShapeCasts S160
  shapeCasts_S160_S1x160 : S160.ShapeCasts S1x160
  shapeCasts_S1_S1x1 : S1.ShapeCasts S1x1
  bcast_S1x1_S32x1_0_1 : S1x1.BroadcastsInDim S32x1 (![0, 1] : Fin 2 → Fin S32x1.rank)
  shapeCasts_S32x1_S32 : S32x1.ShapeCasts S32
  shapeCasts_S32_S1x32 : S32.ShapeCasts S1x32
  inb_S2000x3_S2000x3_0_0 : ∀ a, (![0, 0] : Fin 2 → Nat) a + S2000x3.size a ≤ S2000x3.size a
  h_S2000x3 : 0 < S2000x3.numel
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  concatenates_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x3_S2000x96_d1 : Shape.Concatenates [S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3, S2000x3] S2000x96 1
  inb_S96x32_S96x32_0_0 : ∀ a, (![0, 0] : Fin 2 → Nat) a + S96x32.size a ≤ S96x32.size a
  h_S96x32 : 0 < S96x32.numel
  shapeCasts_S96x32_S96x32 : S96x32.ShapeCasts S96x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S96x3_S96x3_0_0 : ∀ a, (![0, 0] : Fin 2 → Nat) a + S96x3.size a ≤ S96x3.size a
  h_S96x3 : 0 < S96x3.numel
  shapeCasts_S96x3_S96x3 : S96x3.ShapeCasts S96x3
  bitsLt_bf16_f32 : FTy.bits .bf16 < FTy.bits .f32
  inb_S96x160_S96x160_0_0 : ∀ a, (![0, 0] : Fin 2 → Nat) a + S96x160.size a ≤ S96x160.size a
  h_S96x160 : 0 < S96x160.numel
  shapeCasts_S96x160_S96x160 : S96x160.ShapeCasts S96x160
  inb_S160x160_S160x160_0_0 : ∀ a, (![0, 0] : Fin 2 → Nat) a + S160x160.size a ≤ S160x160.size a
  h_S160x160 : 0 < S160x160.numel
  shapeCasts_S160x160_S160x160 : S160x160.ShapeCasts S160x160
  inb_S160x32_S160x32_0_0 : ∀ a, (![0, 0] : Fin 2 → Nat) a + S160x32.size a ≤ S160x32.size a
  h_S160x32 : 0 < S160x32.numel
  shapeCasts_S160x32_S160x32 : S160x32.ShapeCasts S160x32
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2000x160 : S1x160.Broadcasts S2000x160
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x3_S2000 : S2000x3.Reduces [1] S2000
  shapeCasts_S2000_S2000x1 : S2000.ShapeCasts S2000x1
  broadcasts_S2000x1_S2000x3 : S2000x1.Broadcasts S2000x3
  dot_S2000x96_S96x32_S2000x32_1_0_0_1_n_n_wf : DotDims.WF S2000x96 S96x32 S2000x32 [1] [0] [0] [1] [] []
  dot_S2000x32_S32x96_S2000x96_1_0_0_1_n_n_wf : DotDims.WF S2000x32 S32x96 S2000x96 [1] [0] [0] [1] [] []
  dot_S2000x96_S96x160_S2000x160_1_0_0_1_n_n_wf : DotDims.WF S2000x96 S96x160 S2000x160 [1] [0] [0] [1] [] []
  dot_S2000x160_S160x160_S2000x160_1_0_0_1_n_n_wf : DotDims.WF S2000x160 S160x160 S2000x160 [1] [0] [0] [1] [] []
  dot_S2000x160_S160x32_S2000x32_1_0_0_1_n_n_wf : DotDims.WF S2000x160 S160x32 S2000x32 [1] [0] [0] [1] [] []
  dot_S2000x96_S96x3_S2000x3_1_0_0_1_n_n_wf : DotDims.WF S2000x96 S96x3 S2000x3 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S96x32.size a ≤ S96x32.size a
  hwx0_0 : ∀ i : grid0.Coords, EltTy.bits .f32 = 32 ∨ (Rect.block (s := S96x32) S96x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x96.size a ≤ S32x96.size a
  hwx0_1 : ∀ i : grid0.Coords, EltTy.bits .f32 = 32 ∨ (Rect.block (s := S32x96) S32x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x3.size a ≤ S96x3.size a
  hwx0_2 : ∀ i : grid0.Coords, EltTy.bits .f32 = 32 ∨ (Rect.block (s := S96x3) S96x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x160.size a ≤ S96x160.size a
  hwx0_3 : ∀ i : grid0.Coords, EltTy.bits .f32 = 32 ∨ (Rect.block (s := S96x160) S96x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x160.size a ≤ S160x160.size a
  hwx0_5 : ∀ i : grid0.Coords, EltTy.bits .f32 = 32 ∨ (Rect.block (s := S160x160) S160x160.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x160.size a ≤ S1x160.size a
  hwx0_6 : ∀ i : grid0.Coords, EltTy.bits .f32 = 32 ∨ (Rect.block (s := S1x160) S1x160.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S160x32.size a ≤ S160x32.size a
  hwx0_7 : ∀ i : grid0.Coords, EltTy.bits .f32 = 32 ∨ (Rect.block (s := S160x32) S160x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x3.size a ≤ S500000x3.size a
  hwx0_9 : ∀ i : grid0.Coords, EltTy.bits .f32 = 32 ∨ (Rect.block (s := S500000x3) S2000x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x96.size a ≤ S500000x96.size a
  hwx0_10 : ∀ i : grid0.Coords, EltTy.bits .f32 = 32 ∨ (Rect.block (s := S500000x96) S2000x96.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x3.size a ≤ S500000x3.size a
  hwx0_11 : ∀ i : grid0.Coords, EltTy.bits .f32 = 32 ∨ (Rect.block (s := S500000x3) S2000x3.size (cc0_transform_11 i) (hinb0_11 i)).WholeWords (EltTy.packing .f32)

variable [Facts₀]

def dot_S2000x96_S96x32_S2000x32_1_0_0_1_n_n : DotDims S2000x96 S96x32 S2000x32 where
  lhsContracting := [1]
  rhsContracting := [0]
  lhsNonContracting := [0]
  rhsNonContracting := [1]
  lhsBatch := []
  rhsBatch := []
  wf := dot_S2000x96_S96x32_S2000x32_1_0_0_1_n_n_wf
def dot_S2000x32_S32x96_S2000x96_1_0_0_1_n_n : DotDims S2000x32 S32x96 S2000x96 where
  lhsContracting := [1]
  rhsContracting := [0]
  lhsNonContracting := [0]
  rhsNonContracting := [1]
  lhsBatch := []
  rhsBatch := []
  wf := dot_S2000x32_S32x96_S2000x96_1_0_0_1_n_n_wf
def dot_S2000x96_S96x160_S2000x160_1_0_0_1_n_n : DotDims S2000x96 S96x160 S2000x160 where
  lhsContracting := [1]
  rhsContracting := [0]
  lhsNonContracting := [0]
  rhsNonContracting := [1]
  lhsBatch := []
  rhsBatch := []
  wf := dot_S2000x96_S96x160_S2000x160_1_0_0_1_n_n_wf
def dot_S2000x160_S160x160_S2000x160_1_0_0_1_n_n : DotDims S2000x160 S160x160 S2000x160 where
  lhsContracting := [1]
  rhsContracting := [0]
  lhsNonContracting := [0]
  rhsNonContracting := [1]
  lhsBatch := []
  rhsBatch := []
  wf := dot_S2000x160_S160x160_S2000x160_1_0_0_1_n_n_wf
def dot_S2000x160_S160x32_S2000x32_1_0_0_1_n_n : DotDims S2000x160 S160x32 S2000x32 where
  lhsContracting := [1]
  rhsContracting := [0]
  lhsNonContracting := [0]
  rhsNonContracting := [1]
  lhsBatch := []
  rhsBatch := []
  wf := dot_S2000x160_S160x32_S2000x32_1_0_0_1_n_n_wf
def dot_S2000x96_S96x3_S2000x3_1_0_0_1_n_n : DotDims S2000x96 S96x3 S2000x3 where
  lhsContracting := [1]
  rhsContracting := [0]
  lhsNonContracting := [0]
  rhsNonContracting := [1]
  lhsBatch := []
  rhsBatch := []
  wf := dot_S2000x96_S96x3_S2000x3_1_0_0_1_n_n_wf

abbrev win0_0 : Pipeline.Window sig grid0 :=
  Pipeline.Window.ofSpec (Memref.whole main_v14) S96x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S32x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S96x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S96x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S160x160.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x160.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S160x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg0) S2000x3.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0) S2000x96.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v38) S2000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000x3 : Shape := ⟨2, ![500000, 3]⟩
abbrev S500000x32x3 : Shape := ⟨3, ![500000, 32, 3]⟩
abbrev S5x3 : Shape := ⟨2, ![5, 3]⟩
abbrev S5 : Shape := ⟨1, ![5]⟩
abbrev S5x5 : Shape := ⟨2, ![5, 5]⟩
abbrev S1x5 : Shape := ⟨2, ![1, 5]⟩
abbrev S1 : Shape := ⟨1, ![1]⟩
abbrev S500000x1x3 : Shape := ⟨3, ![500000, 1, 3]⟩
abbrev S_ : Shape := ⟨0, ![]⟩
abbrev S500000x32 : Shape := ⟨2, ![500000, 32]⟩
abbrev S500000x32x1 : Shape := ⟨3, ![500000, 32, 1]⟩
abbrev S500000x32x5 : Shape := ⟨3, ![500000, 32, 5]⟩
abbrev S1x1x5 : Shape := ⟨3, ![1, 1, 5]⟩
abbrev S1x1x1 : Shape := ⟨3, ![1, 1, 1]⟩
abbrev S500000 : Shape := ⟨1, ![500000]⟩
abbrev S500000x1 : Shape := ⟨2, ![500000, 1]⟩

abbrev nBuf : Space → Nat
  | .hbm => 53
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S500000x32x3, .f32⟩
  | .hbm, ⟨2, _⟩ => ⟨S5x3, .f32⟩
  | .hbm, ⟨3, _⟩ => ⟨S5, .f32⟩
  | .hbm, ⟨4, _⟩ => ⟨S5x5, .f32⟩
  | .hbm, ⟨5, _⟩ => ⟨S5, .f32⟩
  | .hbm, ⟨6, _⟩ => ⟨S1x5, .f32⟩
  | .hbm, ⟨7, _⟩ => ⟨S1, .f32⟩
  | .hbm, ⟨8, _⟩ => ⟨S500000x1x3, .f32⟩
  | .hbm, ⟨9, _⟩ => ⟨S500000x32x3, .f32⟩
  | .hbm, ⟨10, _⟩ => ⟨S500000x32x3, .f32⟩
  | .hbm, ⟨11, _⟩ => ⟨S500000x32x3, .f32⟩
  | .hbm, ⟨12, _⟩ => ⟨S_, .f32⟩
  | .hbm, ⟨13, _⟩ => ⟨S500000x32, .f32⟩
  | .hbm, ⟨14, _⟩ => ⟨S500000x32x1, .f32⟩
  | .hbm, ⟨15, _⟩ => ⟨S500000x32x1, .f32⟩
  | .hbm, ⟨16, _⟩ => ⟨S_, .f32⟩
  | .hbm, ⟨17, _⟩ => ⟨S500000x32x1, .f32⟩
  | .hbm, ⟨18, _⟩ => ⟨S500000x32x1, .f32⟩
  | .hbm, ⟨19, _⟩ => ⟨S500000x32x3, .f32⟩
  | .hbm, ⟨20, _⟩ => ⟨S500000x32x3, .f32⟩
  | .hbm, ⟨21, _⟩ => ⟨S500000x32x5, .f32⟩
  | .hbm, ⟨22, _⟩ => ⟨S1x1x5, .f32⟩
  | .hbm, ⟨23, _⟩ => ⟨S500000x32x5, .f32⟩
  | .hbm, ⟨24, _⟩ => ⟨S500000x32x5, .f32⟩
  | .hbm, ⟨25, _⟩ => ⟨S_, .f32⟩
  | .hbm, ⟨26, _⟩ => ⟨S500000x32x5, .f32⟩
  | .hbm, ⟨27, _⟩ => ⟨S500000x32x5, .f32⟩
  | .hbm, ⟨28, _⟩ => ⟨S500000x32x5, .f32⟩
  | .hbm, ⟨29, _⟩ => ⟨S1x1x5, .f32⟩
  | .hbm, ⟨30, _⟩ => ⟨S500000x32x5, .f32⟩
  | .hbm, ⟨31, _⟩ => ⟨S500000x32x5, .f32⟩
  | .hbm, ⟨32, _⟩ => ⟨S_, .f32⟩
  | .hbm, ⟨33, _⟩ => ⟨S500000x32x5, .f32⟩
  | .hbm, ⟨34, _⟩ => ⟨S500000x32x5, .f32⟩
  | .hbm, ⟨35, _⟩ => ⟨S500000x32x1, .f32⟩
  | .hbm, ⟨36, _⟩ => ⟨S1x1x1, .f32⟩
  | .hbm, ⟨37, _⟩ => ⟨S500000x32x1, .f32⟩
  | .hbm, ⟨38, _⟩ => ⟨S500000x32x1, .f32⟩
  | .hbm, ⟨39, _⟩ => ⟨S500000x32x3, .f32⟩
  | .hbm, ⟨40, _⟩ => ⟨S500000x32x3, .f32⟩
  | .hbm, ⟨41, _⟩ => ⟨S_, .f32⟩
  | .hbm, ⟨42, _⟩ => ⟨S500000x3, .f32⟩
  | .hbm, ⟨43, _⟩ => ⟨S500000x3, .f32⟩
  | .hbm, ⟨44, _⟩ => ⟨S_, .f32⟩
  | .hbm, ⟨45, _⟩ => ⟨S500000, .f32⟩
  | .hbm, ⟨46, _⟩ => ⟨S500000x1, .f32⟩
  | .hbm, ⟨47, _⟩ => ⟨S500000x1, .f32⟩
  | .hbm, ⟨48, _⟩ => ⟨S_, .f32⟩
  | .hbm, ⟨49, _⟩ => ⟨S500000x1, .f32⟩
  | .hbm, ⟨50, _⟩ => ⟨S500000x1, .f32⟩
  | .hbm, ⟨51, _⟩ => ⟨S500000x3, .f32⟩
  | .hbm, ⟨52, _⟩ => ⟨S500000x3, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_cst : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_cst : Ref sig .tc := ⟨.hbm, 32, rfl⟩
abbrev main_call2_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_call3_v0 : Ref sig .tc := ⟨.hbm, 43, rfl⟩
abbrev main_call3_cst : Ref sig .tc := ⟨.hbm, 44, rfl⟩
abbrev main_call3_v1 : Ref sig .tc := ⟨.hbm, 45, rfl⟩
abbrev main_call3_v2 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  bcast_S500000x3_S500000x1x3_0_2 : S500000x3.BroadcastsInDim S500000x1x3 (![0, 2] : Fin 2 → Fin S500000x1x3.rank)
  bcast_S500000x1x3_S500000x32x3_0_1_2 : S500000x1x3.BroadcastsInDim S500000x32x3 (![0, 1, 2] : Fin 3 → Fin S500000x32x3.rank)
  reducesTo_S500000x32x3_S500000x32_d2 : S500000x32x3.ReducesTo [2] S500000x32
  h_S_ : 0 < S_.numel
  bcast_S500000x32_S500000x32x1_0_1 : S500000x32.BroadcastsInDim S500000x32x1 (![0, 1] : Fin 2 → Fin S500000x32x1.rank)
  bcast_S_S500000x32x1 : S_.BroadcastsInDim S500000x32x1 (![] : Fin 0 → Fin S500000x32x1.rank)
  bcast_S500000x32x1_S500000x32x3_0_1_2 : S500000x32x1.BroadcastsInDim S500000x32x3 (![0, 1, 2] : Fin 3 → Fin S500000x32x3.rank)
  bcast_S5_S1x1x5_2 : S5.BroadcastsInDim S1x1x5 (![2] : Fin 1 → Fin S1x1x5.rank)
  bcast_S1x1x5_S500000x32x5_0_1_2 : S1x1x5.BroadcastsInDim S500000x32x5 (![0, 1, 2] : Fin 3 → Fin S500000x32x5.rank)
  bcast_S_S500000x32x5 : S_.BroadcastsInDim S500000x32x5 (![] : Fin 0 → Fin S500000x32x5.rank)
  bcast_S1_S1x1x1_2 : S1.BroadcastsInDim S1x1x1 (![2] : Fin 1 → Fin S1x1x1.rank)
  bcast_S1x1x1_S500000x32x1_0_1_2 : S1x1x1.BroadcastsInDim S500000x32x1 (![0, 1, 2] : Fin 3 → Fin S500000x32x1.rank)
  reducesTo_S500000x32x3_S500000x3_d1 : S500000x32x3.ReducesTo [1] S500000x3
  reducesTo_S500000x3_S500000_d1 : S500000x3.ReducesTo [1] S500000
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x3_0_1 : S500000x1.BroadcastsInDim S500000x3 (![0, 1] : Fin 2 → Fin S500000x3.rank)
  dot_S500000x32x3_S5x3_S500000x32x5_2_1_01_0_n_n_wf : DotDims.WF S500000x32x3 S5x3 S500000x32x5 [2] [1] [0, 1] [0] [] []
  dot_S500000x32x5_S5x5_S500000x32x5_2_1_01_0_n_n_wf : DotDims.WF S500000x32x5 S5x5 S500000x32x5 [2] [1] [0, 1] [0] [] []
  dot_S500000x32x5_S1x5_S500000x32x1_2_1_01_0_n_n_wf : DotDims.WF S500000x32x5 S1x5 S500000x32x1 [2] [1] [0, 1] [0] [] []

variable [Facts₀]

def dot_S500000x32x3_S5x3_S500000x32x5_2_1_01_0_n_n : DotDims S500000x32x3 S5x3 S500000x32x5 where
  lhsContracting := [2]
  rhsContracting := [1]
  lhsNonContracting := [0, 1]
  rhsNonContracting := [0]
  lhsBatch := []
  rhsBatch := []
  wf := dot_S500000x32x3_S5x3_S500000x32x5_2_1_01_0_n_n_wf
def dot_S500000x32x5_S5x5_S500000x32x5_2_1_01_0_n_n : DotDims S500000x32x5 S5x5 S500000x32x5 where
  lhsContracting := [2]
  rhsContracting := [1]
  lhsNonContracting := [0, 1]
  rhsNonContracting := [0]
  lhsBatch := []
  rhsBatch := []
  wf := dot_S500000x32x5_S5x5_S500000x32x5_2_1_01_0_n_n_wf
def dot_S500000x32x5_S1x5_S500000x32x1_2_1_01_0_n_n : DotDims S500000x32x5 S1x5 S500000x32x1 where
  lhsContracting := [2]
  rhsContracting := [1]
  lhsNonContracting := [0, 1]
  rhsNonContracting := [0]
  lhsBatch := []
  rhsBatch := []
  wf := dot_S500000x32x5_S1x5_S500000x32x1_2_1_01_0_n_n_wf

class Facts : Prop extends Facts₀ where

variable [Facts]
-- ==== Proof.VelSpec.lean ====
/-
  The function both programs compute, stated once over plain coordinates.

  For one particle with position `p` (3 coordinates) and 32 neighbours `x k`:
  the difference vectors `x k - p` are normalised (divided by `max ‖·‖ ε`), a three-layer perceptron
  (3 → 5 → 5 → 1, rectified after the first two layers) gives each normalised difference a scalar weight, the
  weighted normalised differences are summed over the neighbours, and the sum is normalised again.
  Every sum is a finite sum of extended reals; the square root, the quotient and the maximum are the ideal ones.
-/
import Idealize.ShloMosaic.PureOps.Ideal
import Idealize.ShloMosaic.PureOps.Ideal.Laws
import Idealize.ShloMosaic.Lib.ValueIdx

noncomputable section

open scoped BigOperators

namespace Cert.VelSpec

open Idealize.ShloMosaic Idealize.ShloMosaic.ValueIdx

/-- The lower bound of a norm before dividing by it: the single-precision word both programs write. -/
def eps : EReal := Ideal.ofBits .f32 0x2B8CBCCC#32

/-- The Euclidean norm of a 3-vector, bounded below by `eps`. -/
def nrm (v : Fin 3 → EReal) : EReal := max (Ideal.sqrt (∑ e : Fin 3, v e * v e)) eps

/-- A 3-vector divided by its bounded norm. -/
def unitv (v : Fin 3 → EReal) (d : Fin 3) : EReal := Ideal.div (v d) (nrm v)

/-- First layer: an affine map 3 → 5, rectified. -/
def hid1 (W1 : Fin 5 → Fin 3 → EReal) (b1 : Fin 5 → EReal) (u : Fin 3 → EReal) (h : Fin 5) : EReal :=
  max (∑ d : Fin 3, u d * W1 h d + b1 h) 0

/-- Second layer: an affine map 5 → 5, rectified. -/
def hid2 (W2 : Fin 5 → Fin 5 → EReal) (b2 : Fin 5 → EReal) (a : Fin 5 → EReal) (g : Fin 5) : EReal :=
  max (∑ h : Fin 5, a h * W2 g h + b2 g) 0

/-- Third layer: an affine map 5 → 1. -/
def wgt (W3 : Fin 5 → EReal) (b3 : EReal) (a : Fin 5 → EReal) : EReal := ∑ h : Fin 5, a h * W3 h + b3

section row

variable (p : Fin 3 → EReal) (x : Fin 32 → Fin 3 → EReal)
variable (W1 : Fin 5 → Fin 3 → EReal) (b1 : Fin 5 → EReal) (W2 : Fin 5 → Fin 5 → EReal) (b2 : Fin 5 → EReal)
variable (W3 : Fin 5 → EReal) (b3 : EReal)

/-- The difference vector to neighbour `k`. -/
def diff (k : Fin 32) (d : Fin 3) : EReal := x k d - p d

/-- The normalised difference vector to neighbour `k`. -/
def dir (k : Fin 32) (d : Fin 3) : EReal := unitv (diff p x k) d

/-- The perceptron's weight for neighbour `k`. -/
def weight (k : Fin 32) : EReal := wgt W3 b3 (hid2 W2 b2 (hid1 W1 b1 (dir p x k)))

/-- The weighted sum of the normalised differences. -/
def vel (d : Fin 3) : EReal := ∑ k : Fin 32, dir p x k d * weight p x W1 b1 W2 b2 W3 b3 k

/-- One particle's result: the weighted sum, normalised. -/
def rowOut (d : Fin 3) : EReal := unitv (vel p x W1 b1 W2 b2 W3 b3) d

end row

/-- The whole result array, index by index, from the argument arrays. -/
def G (pos : (⟨2, ![500000, 3]⟩ : Shape).Idx → EReal) (nbr : (⟨3, ![500000, 32, 3]⟩ : Shape).Idx → EReal)
    (W1 : (⟨2, ![5, 3]⟩ : Shape).Idx → EReal) (b1 : (⟨1, ![5]⟩ : Shape).Idx → EReal)
    (W2 : (⟨2, ![5, 5]⟩ : Shape).Idx → EReal) (b2 : (⟨1, ![5]⟩ : Shape).Idx → EReal)
    (W3 : (⟨2, ![1, 5]⟩ : Shape).Idx → EReal) (b3 : (⟨1, ![1]⟩ : Shape).Idx → EReal) :
    (⟨2, ![500000, 3]⟩ : Shape).Idx → EReal := fun i =>
  rowOut (fun d => pos (ix2 (i 0) d)) (fun k d => nbr (ix3 (i 0) k d)) (fun h d => W1 (ix2 h d)) (fun h => b1 (ix1 h))
    (fun g h => W2 (ix2 g h)) (fun g => b2 (ix1 g)) (fun h => W3 (ix2 (0 : Fin 1) h)) (b3 (ix1 (0 : Fin 1))) (i 1)

end Cert.VelSpec

end
-- ==== Proof.SelectorSums.lean ====
/-
  Sums against 0/1 selectors, over any additive commutative monoid with a multiplication by 0 and 1 (here: the extended reals).

  An index `j < A·B` is read as the pair `(j / B, j % B)`. A sum over `j` of terms that vanish unless `j / B = k`
  is the sum over the `B` indices of group `k`; a sum of terms that vanish unless `j % B = d` is the sum over the
  `A` indices with remainder `d`; and a sum over `k` of terms that vanish unless `k = t` is the one term at `t`.
-/
import Mathlib

open scoped BigOperators

namespace Cert.SelectorSums

variable {M : Type*} [AddCommMonoid M]

/-- The quotient of an index below `A·B` by `B`, as an index below `A`. -/
def grp {A B : ℕ} (j : Fin (A * B)) : Fin A := ⟨j.val / B, Nat.div_lt_of_lt_mul (lt_of_lt_of_eq j.isLt (Nat.mul_comm A B))⟩

/-- The remainder of an index below `A·B` modulo `B`, as an index below `B`. -/
def off {A B : ℕ} (j : Fin (A * B)) : Fin B :=
  ⟨j.val % B, Nat.mod_lt _ (Nat.pos_of_ne_zero fun h => by subst h; exact absurd j.isLt (by simp))⟩

theorem grp_pair {A B : ℕ} (a : Fin A) (b : Fin B) : grp (finProdFinEquiv (a, b)) = a := by
  apply Fin.ext
  show (b.val + B * a.val) / B = a.val
  rw [Nat.add_mul_div_left _ _ (Nat.pos_of_ne_zero fun h => by subst h; exact b.elim0), Nat.div_eq_of_lt b.isLt, Nat.zero_add]

theorem off_pair {A B : ℕ} (a : Fin A) (b : Fin B) : off (finProdFinEquiv (a, b)) = b := by
  apply Fin.ext
  show (b.val + B * a.val) % B = b.val
  rw [Nat.add_mul_mod_self_left, Nat.mod_eq_of_lt b.isLt]

/-- Quotient and remainder rebuild the index. -/
theorem pair_grp_off {A B : ℕ} (j : Fin (A * B)) : finProdFinEquiv (grp j, off j) = j :=
  Fin.ext (by show j.val % B + B * (j.val / B) = j.val; exact Nat.mod_add_div _ _)

/-- A sum over the indices below `A·B` is the double sum over quotient and remainder. -/
theorem sum_pairs {A B : ℕ} (g : Fin A → Fin B → M) :
    ∑ j : Fin (A * B), g (grp j) (off j) = ∑ a : Fin A, ∑ b : Fin B, g a b := by
  rw [← Equiv.sum_comp finProdFinEquiv, Fintype.sum_prod_type]
  refine Finset.sum_congr rfl fun a _ => Finset.sum_congr rfl fun b _ => ?_
  rw [grp_pair, off_pair]

/-- Terms that vanish off group `k`: what is left is the sum over that group. -/
theorem sum_group {A B : ℕ} (k : Fin A) (g : Fin A → Fin B → M) :
    ∑ j : Fin (A * B), (if j.val / B = k.val then g (grp j) (off j) else 0) = ∑ b : Fin B, g k b := by
  have h := sum_pairs (M := M) (A := A) (B := B) fun a b => if a.val = k.val then g a b else 0
  have h' : ∀ j : Fin (A * B), (if j.val / B = k.val then g (grp j) (off j) else 0)
      = (fun a b => if a.val = k.val then g a b else 0) (grp j) (off j) := fun j => rfl
  rw [Finset.sum_congr rfl fun j _ => h' j, h, Finset.sum_eq_single k]
  · simp
  · intro a _ hne
    have : a.val ≠ k.val := fun e => hne (Fin.ext e)
    simp [this]
  · intro hk; exact absurd (Finset.mem_univ k) hk

/-- Terms that vanish unless the remainder is `d`: what is left is the sum over the groups. -/
theorem sum_offset {A B : ℕ} (d : Fin B) (g : Fin A → Fin B → M) :
    ∑ j : Fin (A * B), (if j.val % B = d.val then g (grp j) (off j) else 0) = ∑ a : Fin A, g a d := by
  have h := sum_pairs (M := M) (A := A) (B := B) fun a b => if b.val = d.val then g a b else 0
  have h' : ∀ j : Fin (A * B), (if j.val % B = d.val then g (grp j) (off j) else 0)
      = (fun a b => if b.val = d.val then g a b else 0) (grp j) (off j) := fun j => rfl
  rw [Finset.sum_congr rfl fun j _ => h' j, h]
  refine Finset.sum_congr rfl fun a _ => ?_
  rw [Finset.sum_eq_single d]
  · simp
  · intro b _ hne
    have : b.val ≠ d.val := fun e => hne (Fin.ext e)
    simp [this]
  · intro hd; exact absurd (Finset.mem_univ d) hd

/-- Terms that vanish unless the index is `t`: what is left is the term at `t`. -/
theorem sum_pick {A : ℕ} (t : Fin A) (g : Fin A → M) :
    ∑ k : Fin A, (if k.val = t.val then g k else 0) = g t := by
  rw [Finset.sum_eq_single t]
  · simp
  · intro k _ hne
    have : k.val ≠ t.val := fun e => hne (Fin.ext e)
    simp [this]
  · intro ht; exact absurd (Finset.mem_univ t) ht

end Cert.SelectorSums
-- ==== Proof.MatmulPlain.lean ====
/-
  A rows-by-columns matrix product into a zero accumulator, read at one entry over the extended reals:
  entry (r, c) of an M×K by K×N product is the sum over k of the left operand at (r, k) times the right at (k, c).
  Stated once for the plain dimension numbers (contract the left operand's last axis with the right operand's first).
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {φ₁ φ₂ : FTy}

theorem lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- Entry (r, c) of the product into the zero accumulator is the sum over the contracted coordinate. -/
theorem matmul_zero_apply (M K N : ℕ) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs0 M K N _ _
      | ⟨1, _⟩ => exact (lhs1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs0 M K N _ _).trans hk
      | ⟨1, _⟩ => exact rhs1 M K N _ _)
  rw [el, er]

end Cert.MatmulPlain

end
-- ==== Proof.SelectorProducts.lean ====
/-
  Matrix products against 0/1 selectors and block-diagonal matrices, read at one entry over the extended reals.

  The row of the left operand is indexed by `j < A·B`, read as the pair (j / B, j % B). Multiplying it by
  * a matrix whose column k selects group k with a weight per remainder gives the weighted sum over group k;
  * a block-diagonal matrix of A copies of a C×B matrix W (transposed) gives, in column q, the product of group
    q / C with row q % C of W;
  * a matrix whose column d selects remainder d gives the sum over the groups at remainder d;
  and multiplying a row indexed by k < A by the matrix whose column j selects k = j / B spreads entry j / B to column j.
  Each is the plain entry formula of a matrix product followed by the collapse of a sum against a selector;
  only x·0 = 0 and x·1 = x are used, so nothing needs to be finite.
-/
import proofs.«111744_j22539988370035_2_alg».proof.Proof.SelectorSums
import proofs.«111744_j22539988370035_2_alg».proof.Proof.MatmulPlain

noncomputable section

open scoped BigOperators

namespace Cert.SelectorProducts

open Idealize.ShloMosaic Idealize.ShloMosaic.ValueIdx Cert.SelectorSums Cert.MatmulPlain

variable {φ₁ φ₂ : FTy}

/-- Column k of the right operand selects group k, with weight `w` of the remainder. -/
theorem mm_group {M A B : ℕ} (prec : Option ContractPrecision)
    (L : FVec Ideal ⟨2, ![M, A * B]⟩ φ₁) (R : FVec Ideal ⟨2, ![A * B, A]⟩ φ₂) (w : Fin B → EReal)
    (hR : ∀ (j : Fin (A * B)) (k : Fin A), R (ix2 j k) = (if j.val / B = k.val then 1 else 0) * w (off j))
    (r : Fin M) (g : Fin A → Fin B → EReal) (hL : ∀ j : Fin (A * B), L (ix2 r j) = g (grp j) (off j)) (k : Fin A) :
    FloatOps.matmul (DotDims.plain M (A * B) A) prec L R (constant (F := Ideal) ⟨2, ![M, A]⟩ .f32 0x00000000#32) (ix2 r k)
      = ∑ e : Fin B, g k e * w e := by
  refine (matmul_zero_apply M (A * B) A prec L R r k).trans ?_
  rw [← sum_group k (fun a e => g a e * w e)]
  refine Finset.sum_congr rfl fun j _ => ?_
  rw [hL j, hR j k]
  split_ifs <;> simp

/-- The right operand is block-diagonal: block (a, a) is the transpose of the C×B matrix `W`. -/
theorem mm_blocks {M A B C : ℕ} (prec : Option ContractPrecision)
    (L : FVec Ideal ⟨2, ![M, A * B]⟩ φ₁) (R : FVec Ideal ⟨2, ![A * B, A * C]⟩ φ₂) (W : Fin C → Fin B → EReal)
    (hR : ∀ (j : Fin (A * B)) (q : Fin (A * C)),
      R (ix2 j q) = (if j.val / B = q.val / C then 1 else 0) * W (off q) (off j))
    (r : Fin M) (g : Fin A → Fin B → EReal) (hL : ∀ j : Fin (A * B), L (ix2 r j) = g (grp j) (off j)) (q : Fin (A * C)) :
    FloatOps.matmul (DotDims.plain M (A * B) (A * C)) prec L R (constant (F := Ideal) ⟨2, ![M, A * C]⟩ .f32 0x00000000#32) (ix2 r q)
      = ∑ e : Fin B, g (grp q) e * W (off q) e := by
  refine (matmul_zero_apply M (A * B) (A * C) prec L R r q).trans ?_
  rw [← sum_group (grp q) (fun a e => g a e * W (off q) e)]
  refine Finset.sum_congr rfl fun j _ => ?_
  rw [hL j, hR j q]
  show _ = if j.val / B = q.val / C then _ else 0
  split_ifs <;> simp

/-- Column j of the right operand selects the one entry k = j / B. -/
theorem mm_pick {M A B : ℕ} (prec : Option ContractPrecision)
    (L : FVec Ideal ⟨2, ![M, A]⟩ φ₁) (R : FVec Ideal ⟨2, ![A, A * B]⟩ φ₂)
    (hR : ∀ (k : Fin A) (j : Fin (A * B)), R (ix2 k j) = if k.val = j.val / B then 1 else 0)
    (r : Fin M) (j : Fin (A * B)) :
    FloatOps.matmul (DotDims.plain M A (A * B)) prec L R (constant (F := Ideal) ⟨2, ![M, A * B]⟩ .f32 0x00000000#32) (ix2 r j)
      = L (ix2 r (grp j)) := by
  refine (matmul_zero_apply M A (A * B) prec L R r j).trans ?_
  rw [← sum_pick (grp j) (fun k => L (ix2 r k))]
  refine Finset.sum_congr rfl fun k _ => ?_
  rw [hR k j]
  show _ = if k.val = j.val / B then _ else 0
  split_ifs <;> simp

/-- Column d of the right operand selects remainder d. -/
theorem mm_offset {M A B : ℕ} (prec : Option ContractPrecision)
    (L : FVec Ideal ⟨2, ![M, A * B]⟩ φ₁) (R : FVec Ideal ⟨2, ![A * B, B]⟩ φ₂)
    (hR : ∀ (j : Fin (A * B)) (d : Fin B), R (ix2 j d) = if j.val % B = d.val then 1 else 0)
    (r : Fin M) (g : Fin A → Fin B → EReal) (hL : ∀ j : Fin (A * B), L (ix2 r j) = g (grp j) (off j)) (d : Fin B) :
    FloatOps.matmul (DotDims.plain M (A * B) B) prec L R (constant (F := Ideal) ⟨2, ![M, B]⟩ .f32 0x00000000#32) (ix2 r d)
      = ∑ a : Fin A, g a d := by
  refine (matmul_zero_apply M (A * B) B prec L R r d).trans ?_
  rw [← sum_offset d g]
  refine Finset.sum_congr rfl fun j _ => ?_
  rw [hL j, hR j d]
  split_ifs <;> simp

end Cert.SelectorProducts

end
-- ==== Proof.VelLayout.lean ====
/-
  Three re-layings read at an index.
  A vector of length a viewed as an a×1 column holds the vector's entry r at (r, 0); an a×1 column spread over b columns
  holds, at (r, c), the column's entry at (r, 0); and 32 copies of an a×3 block laid side by side along the columns hold,
  at (r, j), the block's entry at (r, j mod 3).
-/
import Idealize.ShloMosaic.Lib.Pipeline.Value
import Idealize.ShloMosaic.Lib.ValueIdx

namespace Cert.VelLayout

open Idealize.ShloMosaic Idealize.ShloMosaic.ValueIdx

variable {α : Type}

/-- A vector of length `a` viewed as a column. -/
theorem shapeCast_a_a1_apply {a : ℕ} (v : (⟨1, ![a]⟩ : Shape).Idx → α)
    (h : (⟨1, ![a]⟩ : Shape).ShapeCasts ⟨2, ![a, 1]⟩) (r : Fin a) :
    shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column spread over `b` columns. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- Thirty-two copies of an a×3 block side by side. -/
theorem tile32_apply {a : ℕ} (x : (⟨2, ![a, 3]⟩ : Shape).Idx → α)
    (h : Shape.Concatenates ((List.replicate 32 (⟨⟨2, ![a, 3]⟩, x⟩ : (s : Shape) × (s.Idx → α))).map (·.1)) ⟨2, ![a, 96]⟩ 1)
    (r : Fin a) (j : Fin 96) :
    concatenate ⟨2, ![a, 96]⟩ 1 (List.replicate 32 (⟨⟨2, ![a, 3]⟩, x⟩ : (s : Shape) × (s.Idx → α))) h (ix2 r j)
      = x (ix2 r ⟨j.val % 3, Nat.mod_lt _ (by decide)⟩) := by
  refine concatenate_replicate_apply (t := ⟨2, ![a, 96]⟩) (s₁ := ⟨2, ![a, 3]⟩) (1 : Fin 2) 32 x h rfl (ix2 r j) (ix2 r ⟨j.val % 3, Nat.mod_lt _ (by decide)⟩) ?_ ?_
  · rfl
  · intro b hb
    match b with
    | ⟨0, _⟩ => rfl
    | ⟨1, _⟩ => exact absurd rfl hb

end Cert.VelLayout
-- ==== Proof.VelStages.lean ====
/-
  The kernel body's arithmetic, read one entry at a time over the extended reals.

  A block of 2000 particles is processed with the 32·3 difference coordinates of a particle laid along one row
  (column j is neighbour j / 3, coordinate j % 3) and the 32·5 hidden units likewise (column q is neighbour q / 5,
  unit q % 5). Every sum over a group of columns is spelt as a matrix product with a 0/1 selector, and the three
  layers of the perceptron as products with block-diagonal matrices. Read at one entry, each product collapses
  (SelectorProducts) to the short sum of the specification (VelSpec): the squared norm of a difference, a layer's
  affine map, the weighted sum over the neighbours. The hypotheses say what the nine constant blocks hold.
-/
import proofs.«111744_j22539988370035_2_alg».proof.Proof.Gen.KernelIdeal.Skeleton
import proofs.«111744_j22539988370035_2_alg».proof.Proof.VelSpec
import proofs.«111744_j22539988370035_2_alg».proof.Proof.SelectorProducts
import proofs.«111744_j22539988370035_2_alg».proof.Proof.VelLayout
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx
open Cert.VelSpec Cert.SelectorSums Cert.SelectorProducts Cert.VelLayout

/-! ## Columns as (neighbour, coordinate) and (neighbour, unit) -/

/-- The neighbour of difference column `j`. -/
abbrev nb (j : Fin 96) : Fin 32 := grp (A := 32) (B := 3) j
/-- The coordinate of difference column `j`. -/
abbrev cd (j : Fin 96) : Fin 3 := off (A := 32) (B := 3) j
/-- The neighbour of hidden column `q`. -/
abbrev un (q : Fin 160) : Fin 32 := grp (A := 32) (B := 5) q
/-- The unit of hidden column `q`. -/
abbrev ch (q : Fin 160) : Fin 5 := off (A := 32) (B := 5) q
/-- The difference column of neighbour `k`, coordinate `e`. -/
def col (k : Fin 32) (e : Fin 3) : Fin 96 := ⟨e.val + 3 * k.val, by have := e.isLt; have := k.isLt; omega⟩

theorem col_nb_cd (j : Fin 96) : col (nb j) (cd j) = j :=
  Fin.ext (by show j.val % 3 + 3 * (j.val / 3) = j.val; exact Nat.mod_add_div _ _)
theorem nb_col (k : Fin 32) (e : Fin 3) : nb (col k e) = k :=
  Fin.ext (by show (e.val + 3 * k.val) / 3 = k.val; have := e.isLt; omega)
theorem cd_col (k : Fin 32) (e : Fin 3) : cd (col k e) = e :=
  Fin.ext (by show (e.val + 3 * k.val) % 3 = e.val; have := e.isLt; omega)

/-- Row `r` of a block of positions. -/
def pRow (P : FVec Ideal S2000x3 .f32) (r : Fin 2000) : Fin 3 → EReal := fun e => P (ix2 r e)
/-- Row `r` of a block of flattened neighbours, by neighbour and coordinate. -/
def xRow (X : FVec Ideal S2000x96 .f32) (r : Fin 2000) : Fin 32 → Fin 3 → EReal := fun k e => X (ix2 r (col k e))

/-! ## The stages over variables -/

/-- The differences: each neighbour coordinate minus the particle's own, the positions tiled 32 times along the row. -/
theorem diffs_apply (P : FVec Ideal S2000x3 .f32) (X : FVec Ideal S2000x96 .f32) (h1 : S2000x96.ShapeCasts S2000x96)
    (h2 : Shape.Concatenates ((List.replicate 32 (⟨S2000x3, P⟩ : (s : Shape) × (s.Idx → Ideal .f32))).map (·.1)) S2000x96 1)
    (r : Fin 2000) (j : Fin 96) :
    subf (shapeCast S2000x96 X h1) (concatenate S2000x96 1 (List.replicate 32 (⟨S2000x3, P⟩ : (s : Shape) × (s.Idx → Ideal .f32))) h2) (ix2 r j)
      = X (ix2 r j) - P (ix2 r (cd j)) := by
  show shapeCast S2000x96 X h1 (ix2 r j) - concatenate S2000x96 1 (List.replicate 32 (⟨S2000x3, P⟩ : (s : Shape) × (s.Idx → Ideal .f32))) h2 (ix2 r j) = _
  rw [shapeCast_self, tile32_apply P h2 r j]
  rfl

/-- A row of differences divided, group by group, by the bounded norm of the group: the squared norms by a
    group-selector product, spread back over the group's columns by the transposed selector. -/
theorem nd_apply (D : FVec Ideal S2000x96 .f32) (S' : FVec Ideal S96x32 .f32) (Sb' : FVec Ideal S32x96 .f32)
    (hS : ∀ (j : Fin 96) (k : Fin 32), S' (ix2 j k) = if j.val / 3 = k.val then 1 else 0)
    (hSb : ∀ (k : Fin 32) (j : Fin 96), Sb' (ix2 k j) = if k.val = j.val / 3 then 1 else 0)
    (g : Fin 32 → Fin 3 → EReal) (r : Fin 2000) (hD : ∀ j : Fin 96, D (ix2 r j) = g (nb j) (cd j)) (j : Fin 96) :
    divf D (maximumf (sqrt (matmul dot_S2000x32_S32x96_S2000x96_1_0_0_1_n_n (some .fp32) (matmul dot_S2000x96_S96x32_S2000x32_1_0_0_1_n_n (some .fp32) (mulf D D) S' (constant S2000x32 .f32 0x00000000#32)) Sb' (constant S2000x96 .f32 0x00000000#32))) (broadcast S2000x96 (Scalar.ofBits .f32 0x2B8CBCCC#32))) (ix2 r j) = unitv (g (nb j)) (cd j) := by
  have h1 : ∀ k : Fin 32, (matmul dot_S2000x96_S96x32_S2000x32_1_0_0_1_n_n (some .fp32) (mulf D D) S' (constant S2000x32 .f32 0x00000000#32)) (ix2 r k) = ∑ e : Fin 3, g k e * g k e := fun k => by
    refine (mm_group (M := 2000) (A := 32) (B := 3) (some .fp32) (mulf D D) S' (fun _ => 1)
      (fun j k => by rw [hS j k]; exact (mul_one _).symm) r (fun a e => g a e * g a e) (fun j => ?_) k).trans ?_
    · show D (ix2 r j) * D (ix2 r j) = _
      rw [hD j]
    · simp only [mul_one]
  have h2 : (matmul dot_S2000x32_S32x96_S2000x96_1_0_0_1_n_n (some .fp32) (matmul dot_S2000x96_S96x32_S2000x32_1_0_0_1_n_n (some .fp32) (mulf D D) S' (constant S2000x32 .f32 0x00000000#32)) Sb' (constant S2000x96 .f32 0x00000000#32)) (ix2 r j) = ∑ e : Fin 3, g (nb j) e * g (nb j) e :=
    (mm_pick (M := 2000) (A := 32) (B := 3) (some .fp32) (matmul dot_S2000x96_S96x32_S2000x32_1_0_0_1_n_n (some .fp32) (mulf D D) S' (constant S2000x32 .f32 0x00000000#32)) Sb' hSb r j).trans (h1 (nb j))
  show Ideal.div (D (ix2 r j)) (max (Ideal.sqrt ((matmul dot_S2000x32_S32x96_S2000x96_1_0_0_1_n_n (some .fp32) (matmul dot_S2000x96_S96x32_S2000x32_1_0_0_1_n_n (some .fp32) (mulf D D) S' (constant S2000x32 .f32 0x00000000#32)) Sb' (constant S2000x96 .f32 0x00000000#32)) (ix2 r j))) (Ideal.ofBits .f32 0x2B8CBCCC#32)) = _
  rw [h2, hD j]
  rfl

/-- First layer: the block-diagonal product gives each neighbour's 5 units from its 3 coordinates; bias; rectifier. -/
theorem layer1_apply (N' : FVec Ideal S2000x96 .bf16) (A1' : FVec Ideal S96x160 .bf16) (c1' : FVec Ideal S1x160 .f32)
    (hb : S1x160.Broadcasts S2000x160) (hlt : FTy.bf16.bits < FTy.f32.bits)
    (W1 : Fin 5 → Fin 3 → EReal) (b1 : Fin 5 → EReal)
    (hA1 : ∀ (j : Fin 96) (q : Fin 160), A1' (ix2 j q) = (if j.val / 3 = q.val / 5 then 1 else 0) * W1 (ch q) (cd j))
    (hc1 : ∀ q : Fin 160, c1' (ix2 (0 : Fin 1) q) = b1 (ch q))
    (u : Fin 32 → Fin 3 → EReal) (r : Fin 2000) (hN : ∀ j : Fin 96, N' (ix2 r j) = u (nb j) (cd j)) (q : Fin 160) :
    truncf .bf16 (maximumf (addf (matmul dot_S2000x96_S96x160_S2000x160_1_0_0_1_n_n none N' A1' (constant S2000x160 .f32 0x00000000#32)) (broadcastTo S2000x160 c1' hb)) (broadcast S2000x160 (Scalar.ofBits .f32 0x00000000#32))) hlt (ix2 r q)
      = hid1 W1 b1 (u (un q)) (ch q) := by
  have hm : (matmul dot_S2000x96_S96x160_S2000x160_1_0_0_1_n_n none N' A1' (constant S2000x160 .f32 0x00000000#32)) (ix2 r q) = ∑ e : Fin 3, u (un q) e * W1 (ch q) e :=
    mm_blocks (M := 2000) (A := 32) (B := 3) (C := 5) none N' A1' W1 hA1 r u hN q
  show max ((matmul dot_S2000x96_S96x160_S2000x160_1_0_0_1_n_n none N' A1' (constant S2000x160 .f32 0x00000000#32)) (ix2 r q) + broadcastTo S2000x160 c1' hb (ix2 r q)) (Ideal.ofBits .f32 0x00000000#32) = _
  rw [hm, broadcastTo_1b_ab_apply c1' hb r q, hc1 q, Ideal.ofBits_zero_f32]
  rfl

/-- Second layer: 5 units from 5 units, per neighbour. -/
theorem layer2_apply (H1' : FVec Ideal S2000x160 .bf16) (A2' : FVec Ideal S160x160 .bf16) (c2' : FVec Ideal S1x160 .f32)
    (hb : S1x160.Broadcasts S2000x160) (hlt : FTy.bf16.bits < FTy.f32.bits)
    (W2 : Fin 5 → Fin 5 → EReal) (b2 : Fin 5 → EReal)
    (hA2 : ∀ (p q : Fin 160), A2' (ix2 p q) = (if p.val / 5 = q.val / 5 then 1 else 0) * W2 (ch q) (ch p))
    (hc2 : ∀ q : Fin 160, c2' (ix2 (0 : Fin 1) q) = b2 (ch q))
    (a1 : Fin 32 → Fin 5 → EReal) (r : Fin 2000) (hH : ∀ p : Fin 160, H1' (ix2 r p) = a1 (un p) (ch p)) (q : Fin 160) :
    truncf .bf16 (maximumf (addf (matmul dot_S2000x160_S160x160_S2000x160_1_0_0_1_n_n none H1' A2' (constant S2000x160 .f32 0x00000000#32)) (broadcastTo S2000x160 c2' hb)) (broadcast S2000x160 (Scalar.ofBits .f32 0x00000000#32))) hlt (ix2 r q)
      = hid2 W2 b2 (a1 (un q)) (ch q) := by
  have hm : (matmul dot_S2000x160_S160x160_S2000x160_1_0_0_1_n_n none H1' A2' (constant S2000x160 .f32 0x00000000#32)) (ix2 r q) = ∑ h : Fin 5, a1 (un q) h * W2 (ch q) h :=
    mm_blocks (M := 2000) (A := 32) (B := 5) (C := 5) none H1' A2' W2 hA2 r a1 hH q
  show max ((matmul dot_S2000x160_S160x160_S2000x160_1_0_0_1_n_n none H1' A2' (constant S2000x160 .f32 0x00000000#32)) (ix2 r q) + broadcastTo S2000x160 c2' hb (ix2 r q)) (Ideal.ofBits .f32 0x00000000#32) = _
  rw [hm, broadcastTo_1b_ab_apply c2' hb r q, hc2 q, Ideal.ofBits_zero_f32]
  rfl

/-- Third layer: one weight per neighbour from its 5 units. -/
theorem layer3_apply (H2' : FVec Ideal S2000x160 .bf16) (A3' : FVec Ideal S160x32 .bf16) (c3' : FVec Ideal S1x32 .f32)
    (hb : S1x32.Broadcasts S2000x32) (W3 : Fin 5 → EReal) (b3 : EReal)
    (hA3 : ∀ (p : Fin 160) (k : Fin 32), A3' (ix2 p k) = (if p.val / 5 = k.val then 1 else 0) * W3 (ch p))
    (hc3 : ∀ k : Fin 32, c3' (ix2 (0 : Fin 1) k) = b3)
    (a2 : Fin 32 → Fin 5 → EReal) (r : Fin 2000) (hH : ∀ p : Fin 160, H2' (ix2 r p) = a2 (un p) (ch p)) (k : Fin 32) :
    addf (matmul dot_S2000x160_S160x32_S2000x32_1_0_0_1_n_n none H2' A3' (constant S2000x32 .f32 0x00000000#32)) (broadcastTo S2000x32 c3' hb) (ix2 r k) = wgt W3 b3 (a2 k) := by
  have hm : (matmul dot_S2000x160_S160x32_S2000x32_1_0_0_1_n_n none H2' A3' (constant S2000x32 .f32 0x00000000#32)) (ix2 r k) = ∑ h : Fin 5, a2 k h * W3 h :=
    mm_group (M := 2000) (A := 32) (B := 5) none H2' A3' W3 hA3 r a2 hH k
  show (matmul dot_S2000x160_S160x32_S2000x32_1_0_0_1_n_n none H2' A3' (constant S2000x32 .f32 0x00000000#32)) (ix2 r k) + broadcastTo S2000x32 c3' hb (ix2 r k) = _
  rw [hm, broadcastTo_1b_ab_apply c3' hb r k, hc3 k]
  rfl

/-- The weights spread over their neighbours' columns, the weighted normalised differences summed over the
    neighbours by the coordinate selector, and the sum normalised. -/
theorem out_apply (N : FVec Ideal S2000x96 .f32) (Wk : FVec Ideal S2000x32 .f32) (Sb' : FVec Ideal S32x96 .f32) (Q' : FVec Ideal S96x3 .f32)
    (hSb : ∀ (k : Fin 32) (j : Fin 96), Sb' (ix2 k j) = if k.val = j.val / 3 then 1 else 0)
    (hQ : ∀ (j : Fin 96) (d : Fin 3), Q' (ix2 j d) = if j.val % 3 = d.val then 1 else 0)
    (hred : S2000x3.Reduces [1] S2000) (hφ : FKind.Formats .f32) (hacc : (0x00000000#32 : BitVec 32) = FKind.add.neutral .f32 hφ)
    (hsc : S2000.ShapeCasts S2000x1) (hbc : S2000x1.Broadcasts S2000x3)
    (u : Fin 32 → Fin 3 → EReal) (w : Fin 32 → EReal) (r : Fin 2000)
    (hN : ∀ j : Fin 96, N (ix2 r j) = u (nb j) (cd j)) (hW : ∀ k : Fin 32, Wk (ix2 r k) = w k) (d : Fin 3) :
    divf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (broadcastTo S2000x3 (maximumf (sqrt (shapeCast S2000x1 (multiReduction .add [1] S2000 (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) 0x00000000#32 hred hφ hacc) hsc)) (broadcast S2000x1 (Scalar.ofBits .f32 0x2B8CBCCC#32))) hbc) (ix2 r d) = unitv (fun d' => ∑ k : Fin 32, u k d' * w k) d := by
  have hV : ∀ d' : Fin 3, (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (ix2 r d') = ∑ k : Fin 32, u k d' * w k := fun d' => by
    refine mm_offset (M := 2000) (A := 32) (B := 3) (some .fp32) (mulf N (matmul dot_S2000x32_S32x96_S2000x96_1_0_0_1_n_n (some .fp32) Wk Sb' (constant S2000x96 .f32 0x00000000#32))) Q' hQ r (fun a e => u a e * w a) (fun j => ?_) d'
    have hp : (matmul dot_S2000x32_S32x96_S2000x96_1_0_0_1_n_n (some .fp32) Wk Sb' (constant S2000x96 .f32 0x00000000#32)) (ix2 r j) = w (nb j) :=
      (mm_pick (M := 2000) (A := 32) (B := 3) (some .fp32) Wk Sb' hSb r j).trans (hW _)
    show N (ix2 r j) * (matmul dot_S2000x32_S32x96_S2000x96_1_0_0_1_n_n (some .fp32) Wk Sb' (constant S2000x96 .f32 0x00000000#32)) (ix2 r j) = _
    rw [hN j, hp]
  have hs : (multiReduction .add [1] S2000 (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) 0x00000000#32 hred hφ hacc) (ix1 r) = ∑ e : Fin 3, (∑ k : Fin 32, u k e * w k) * (∑ k : Fin 32, u k e * w k) := by
    refine (Ideal.multiReduction_add_single (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) 0x00000000#32 hred hφ hacc (ix1 r)).trans ?_
    show (∑ e : Fin 3, (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) (hred.lift (ix1 r) e)) = _
    refine Finset.sum_congr rfl fun e _ => ?_
    have he : hred.lift (ix1 r) e = ix2 r e := funext fun a => Fin.ext (by
      match a with
      | ⟨0, _⟩ => rfl
      | ⟨1, _⟩ => rfl)
    rw [he]
    show (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (ix2 r e) * (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (ix2 r e) = _
    rw [hV e]
  show Ideal.div ((matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (ix2 r d)) (broadcastTo S2000x3 (maximumf (sqrt (shapeCast S2000x1 (multiReduction .add [1] S2000 (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) 0x00000000#32 hred hφ hacc) hsc)) (broadcast S2000x1 (Scalar.ofBits .f32 0x2B8CBCCC#32))) hbc (ix2 r d)) = _
  rw [broadcastTo_a1_ab_apply (maximumf (sqrt (shapeCast S2000x1 (multiReduction .add [1] S2000 (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) 0x00000000#32 hred hφ hacc) hsc)) (broadcast S2000x1 (Scalar.ofBits .f32 0x2B8CBCCC#32))) hbc r d]
  show Ideal.div ((matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (ix2 r d)) (max (Ideal.sqrt (shapeCast S2000x1 (multiReduction .add [1] S2000 (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) 0x00000000#32 hred hφ hacc) hsc (ix2 r (0 : Fin 1)))) (Ideal.ofBits .f32 0x2B8CBCCC#32)) = _
  rw [shapeCast_a_a1_apply (multiReduction .add [1] S2000 (mulf (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32)) (matmul dot_S2000x96_S96x3_S2000x3_1_0_0_1_n_n (some .fp32) (mulf N (matmul dot_S2000x32_S32x96_S2000x96_1_0_0_1_n_n (some .fp32) Wk Sb' (constant S2000x96 .f32 0x00000000#32))) Q' (constant S2000x3 .f32 0x00000000#32))) 0x00000000#32 hred hφ hacc) hsc r, hs, hV d]
  rfl

end Cert.KernelIdeal.Pay

end
-- ==== Proof.VelBody.lean ====
/-
  The kernel body's result at one entry is the specification's row function.

  The body's value is a composition of the stages of VelStages: the normalised differences (payload 4), the first hidden
  layer (payload 7), and from those the second layer, the weights, the weighted sum and the last normalisation
  (payload 1). Given what the nine constant blocks hold — the three selectors, the three block-diagonal weight
  matrices, the three tiled biases — entry (r, d) of the stored block is `rowOut` of row r of the position block and of
  the flattened neighbour block.
-/
import proofs.«111744_j22539988370035_2_alg».proof.Proof.VelStages

noncomputable section

open scoped BigOperators

namespace Cert.KernelIdeal.Pay

open Cert.KernelIdeal Cert.KernelIdeal.Gen Idealize.ShloMosaic Idealize.ShloMosaic.ValueIdx
open Cert.VelSpec Cert.SelectorSums Cert.SelectorProducts Cert.VelLayout

section body

variable (S : FVec Ideal S96x32 .f32) (Sb : FVec Ideal S32x96 .f32) (Q : FVec Ideal S96x3 .f32)
variable (A1 : FVec Ideal S96x160 .f32) (c1 : FVec Ideal S1x160 .f32) (A2 : FVec Ideal S160x160 .f32) (c2 : FVec Ideal S1x160 .f32)
variable (A3 : FVec Ideal S160x32 .f32) (c3 : FVec Ideal S1x32 .f32) (P : FVec Ideal S2000x3 .f32) (X : FVec Ideal S2000x96 .f32)
variable (W1 : Fin 5 → Fin 3 → EReal) (b1 : Fin 5 → EReal) (W2 : Fin 5 → Fin 5 → EReal) (b2 : Fin 5 → EReal)
variable (W3 : Fin 5 → EReal) (b3 : EReal)
variable (hS : ∀ (j : Fin 96) (k : Fin 32), S (ix2 j k) = if j.val / 3 = k.val then 1 else 0)
variable (hSb : ∀ (k : Fin 32) (j : Fin 96), Sb (ix2 k j) = if k.val = j.val / 3 then 1 else 0)
variable (hQ : ∀ (j : Fin 96) (d : Fin 3), Q (ix2 j d) = if j.val % 3 = d.val then 1 else 0)
variable (hA1 : ∀ (j : Fin 96) (q : Fin 160), A1 (ix2 j q) = (if j.val / 3 = q.val / 5 then 1 else 0) * W1 (ch q) (cd j))
variable (hc1 : ∀ q : Fin 160, c1 (ix2 (0 : Fin 1) q) = b1 (ch q))
variable (hA2 : ∀ (p q : Fin 160), A2 (ix2 p q) = (if p.val / 5 = q.val / 5 then 1 else 0) * W2 (ch q) (ch p))
variable (hc2 : ∀ q : Fin 160, c2 (ix2 (0 : Fin 1) q) = b2 (ch q))
variable (hA3 : ∀ (p : Fin 160) (k : Fin 32), A3 (ix2 p k) = (if p.val / 5 = k.val then 1 else 0) * W3 (ch p))
variable (hc3 : ∀ k : Fin 32, c3 (ix2 (0 : Fin 1) k) = b3)

include hS hSb in
/-- Payload 4 at column j of row r: the normalised difference of neighbour j / 3, coordinate j % 3. -/
theorem pay4_apply (r : Fin 2000) (j : Fin 96) :
    k0_pay4 (F := Ideal) P X S Sb (ix2 r j) = dir (pRow P r) (xRow X r) (nb j) (cd j) := by
  unfold k0_pay4 k0_pay2
  try dsimp only
  refine nd_apply _ _ _ (fun j k => ?_) (fun k j => ?_) (diff (pRow P r) (xRow X r)) r (fun j' => ?_) j
  · rw [shapeCast_self]; exact hS j k
  · rw [shapeCast_self]; exact hSb k j
  · refine (diffs_apply P X _ _ r j').trans ?_
    show X (ix2 r j') - P (ix2 r (cd j')) = X (ix2 r (col (nb j') (cd j'))) - P (ix2 r (cd j'))
    rw [col_nb_cd]

include hS hSb hA1 hc1 in
/-- Payload 7 at column q of row r: unit q % 5 of the first layer for neighbour q / 5. -/
theorem pay7_apply (r : Fin 2000) (q : Fin 160) :
    k0_pay7 (F := Ideal) P X S Sb A1 c1 (ix2 r q) = hid1 W1 b1 (dir (pRow P r) (xRow X r) (un q)) (ch q) := by
  unfold k0_pay7
  try dsimp only
  refine layer1_apply _ _ _ _ _ W1 b1 (fun j q' => ?_) (fun q' => ?_) (dir (pRow P r) (xRow X r)) r (fun j => ?_) q
  · show shapeCast S96x160 A1 _ (ix2 j q') = _
    rw [shapeCast_self]; exact hA1 j q'
  · rw [shapeCast_self]; exact hc1 q'
  · exact pay4_apply S Sb P X hS hSb r j

include hSb hQ hA2 hc2 hA3 hc3 in
/-- Payload 1 at (r, d), over any normalised differences `u` and first-layer values `a1` of row r. -/
theorem pay1_apply (N : FVec Ideal S2000x96 .f32) (H1 : FVec Ideal S2000x160 .bf16)
    (u : Fin 32 → Fin 3 → EReal) (a1 : Fin 32 → Fin 5 → EReal) (r : Fin 2000)
    (hN : ∀ j : Fin 96, N (ix2 r j) = u (nb j) (cd j)) (hH1 : ∀ p : Fin 160, H1 (ix2 r p) = a1 (un p) (ch p)) (d : Fin 3) :
    k0_pay1 (F := Ideal) (k0_pay2 (F := Ideal) Sb) (k0_pay3 (F := Ideal) Q) N (k0_pay5 (F := Ideal) A2) (k0_pay6 (F := Ideal) A3) H1 c2 c3 (ix2 r d)
      = unitv (fun d' => ∑ k : Fin 32, u k d' * wgt W3 b3 (hid2 W2 b2 (a1 k))) d := by
  unfold k0_pay1 k0_pay2 k0_pay3 k0_pay5 k0_pay6
  try dsimp only
  refine out_apply _ _ _ _ (fun k j => ?_) (fun j d' => ?_) _ _ _ _ _ u (fun k => wgt W3 b3 (hid2 W2 b2 (a1 k))) r hN (fun k => ?_) d
  · rw [shapeCast_self]; exact hSb k j
  · rw [shapeCast_self]; exact hQ j d'
  · refine layer3_apply _ _ _ _ W3 b3 (fun p k' => ?_) (fun k' => ?_) (fun k' => hid2 W2 b2 (a1 k')) r (fun p => ?_) k
    · show shapeCast S160x32 A3 _ (ix2 p k') = _
      rw [shapeCast_self]; exact hA3 p k'
    · rw [shapeCast_self]; exact hc3 k'
    · refine layer2_apply _ _ _ _ _ W2 b2 (fun p' q' => ?_) (fun q' => ?_) a1 r hH1 p
      · show shapeCast S160x160 A2 _ (ix2 p' q') = _
        rw [shapeCast_self]; exact hA2 p' q'
      · rw [shapeCast_self]; exact hc2 q'

include hS hSb hQ hA1 hc1 hA2 hc2 hA3 hc3 in
/-- The stored block at (r, d): the specification's row function of row r of the two streamed blocks. -/
theorem body_row (r : Fin 2000) (d : Fin 3) :
    k0_pay1 (F := Ideal) (k0_pay2 (F := Ideal) Sb) (k0_pay3 (F := Ideal) Q) (k0_pay4 (F := Ideal) P X S Sb) (k0_pay5 (F := Ideal) A2) (k0_pay6 (F := Ideal) A3) (k0_pay7 (F := Ideal) P X S Sb A1 c1) c2 c3 (ix2 r d)
      = rowOut (pRow P r) (xRow X r) W1 b1 W2 b2 W3 b3 d :=
  (pay1_apply Sb Q A2 c2 A3 c3 W2 b2 W3 b3 hSb hQ hA2 hc2 hA3 hc3 (k0_pay4 (F := Ideal) P X S Sb) (k0_pay7 (F := Ideal) P X S Sb A1 c1)
    (dir (pRow P r) (xRow X r)) (fun k => hid1 W1 b1 (dir (pRow P r) (xRow X r) k)) r
    (fun j => pay4_apply S Sb P X hS hSb r j) (fun p => pay7_apply S Sb A1 c1 P X W1 b1 hS hSb hA1 hc1 r p) d).trans rfl

end body

end Cert.KernelIdeal.Pay

end
-- ==== Proof.HostKron.lean ====
/- The constant matrices the wrapper builds before the kernel's region, read at an index: the 32 × 32 identity, the
   Kronecker product of a 32 × 32 matrix with a p × q matrix (built as a broadcast product over four axes merged in
   pairs), and, from these, the two group selectors (identity ⊗ all-ones column, identity ⊗ all-ones row) and the three
   block-diagonal weight matrices (identity ⊗ transposed weights). -/
import proofs.«111744_j22539988370035_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.IdealRules

set_option maxRecDepth 16384

noncomputable section

namespace Cert.KernelIdeal.HostArr

open Cert.KernelIdeal Cert.KernelIdeal.Gen Idealize.ShloMosaic Idealize.ShloMosaic.TcCoe Idealize.ShloMosaic.ValueIdx Idealize.SL.Sem

/-! ## The identity matrix -/

/-- The 32 × 32 identity as the program builds it: the row number plus zero compared with the column number, the
    bit converted to a float. -/
abbrev eyeT : FVec Ideal S32x32 .f32 :=
  uitofp (F := Ideal) .f32 (cmpi .eq (addi (iotaInDim S32x32 32 0) (broadcastInDim S32x32 ![] bcast_S_S32x32 (constantI S_ 32 0#32))) (iotaInDim S32x32 32 1))

/-- Two numbers below 32 with the same 32-bit word are equal. -/
theorem eq_of_ofNat32_eq {a b : ℕ} (ha : a < 32) (hb : b < 32) (h : BitVec.ofNat 32 a = BitVec.ofNat 32 b) : a = b := by
  have h' := congrArg BitVec.toNat h
  rw [BitVec.toNat_ofNat, BitVec.toNat_ofNat, Nat.mod_eq_of_lt (by omega), Nat.mod_eq_of_lt (by omega)] at h'
  exact h'

/-- The identity matrix at (a, b): one on the diagonal, zero off it. -/
theorem eyeT_apply (a b : Fin 32) : eyeT (ix2 a b) = if a.val = b.val then 1 else 0 := by
  show (((IntOp.cmpi .eq (IntOp.addi (BitVec.ofNat 32 a.val) 0#32) (BitVec.ofNat 32 b.val)).toNat : ℝ) : EReal) = _
  unfold IntOp.cmpi IntOp.addi
  rw [BitVec.add_zero]
  by_cases h : a.val = b.val
  · rw [if_pos h, h]
    simp
  · rw [if_neg h]
    have hne : BitVec.ofNat 32 a.val ≠ BitVec.ofNat 32 b.val := fun e => h (eq_of_ofNat32_eq a.isLt b.isLt e)
    simp [hne]

/-! ## A Kronecker product with a 32 × 32 left factor, read at an index -/

/-- The Kronecker product of A (32 × 32) and B (p × q) as the program builds it — both factors broadcast to the
    four-axis array [32, p, 32, q], multiplied, and the four axes merged in pairs — read at row a·p + i and column
    b·q + j: the product of A at (a, b) and B at (i, j). -/
theorem kron_apply {p q P Q : ℕ} (A : FVec Ideal (⟨2, ![32, 32]⟩ : Shape) .f32) (B : FVec Ideal (⟨2, ![p, q]⟩ : Shape) .f32)
    (h0 : (⟨2, ![32, 32]⟩ : Shape).BroadcastsInDim ⟨4, ![32, 1, 32, 1]⟩ ![0, 2])
    (h1 : (⟨2, ![p, q]⟩ : Shape).BroadcastsInDim ⟨4, ![1, p, 1, q]⟩ ![1, 3])
    (h2 : (⟨4, ![32, 1, 32, 1]⟩ : Shape).BroadcastsInDim ⟨4, ![32, p, 32, q]⟩ ![0, 1, 2, 3])
    (h3 : (⟨4, ![1, p, 1, q]⟩ : Shape).BroadcastsInDim ⟨4, ![32, p, 32, q]⟩ ![0, 1, 2, 3])
    (h4 : (⟨4, ![32, p, 32, q]⟩ : Shape).ShapeCasts ⟨2, ![P, Q]⟩)
    (hQ : Q = 32 * q)
    (r : Fin P) (s : Fin Q) (a : Fin 32) (i : Fin p) (b : Fin 32) (j : Fin q)
    (hr : r.val = a.val * p + i.val) (hs : s.val = b.val * q + j.val) :
    shapeCast ⟨2, ![P, Q]⟩
        (mulf (broadcastInDim ⟨4, ![32, p, 32, q]⟩ ![0, 1, 2, 3] h2 (broadcastInDim ⟨4, ![32, 1, 32, 1]⟩ ![0, 2] h0 A))
          (broadcastInDim ⟨4, ![32, p, 32, q]⟩ ![0, 1, 2, 3] h3 (broadcastInDim ⟨4, ![1, p, 1, q]⟩ ![1, 3] h1 B))) h4 (ix2 r s)
      = A (ix2 a b) * B (ix2 i j) := by
  refine (shapeCast_apply _ h4 (ix2 r s) (ix4 a i b j) ?_).trans ?_
  · rw [Shape.rowMajor_val_four, Shape.rowMajor_val_two]
    show ((a.val * p + i.val) * 32 + b.val) * q + j.val = r.val * Q + s.val
    rw [hr, hs, hQ]; ring
  · refine (mulf_apply _ _ _).trans ?_
    have eA : broadcastInDim ⟨4, ![32, p, 32, q]⟩ ![0, 1, 2, 3] h2 (broadcastInDim ⟨4, ![32, 1, 32, 1]⟩ ![0, 2] h0 A) (ix4 a i b j)
        = A (ix2 a b) := by
      refine (broadcastInDim_apply _ h2 _ (ix4 a i b j) (ix4 a (0 : Fin 1) b (0 : Fin 1)) ?_).trans ?_
      · intro ax
        match ax with
        | ⟨0, _⟩ => rfl
        | ⟨1, _⟩ => rfl
        | ⟨2, _⟩ => rfl
        | ⟨3, _⟩ => rfl
      · exact broadcastInDim_apply _ h0 A _ (ix2 a b) (fun ax => match ax with | ⟨0, _⟩ => rfl | ⟨1, _⟩ => rfl)
    have eB : broadcastInDim ⟨4, ![32, p, 32, q]⟩ ![0, 1, 2, 3] h3 (broadcastInDim ⟨4, ![1, p, 1, q]⟩ ![1, 3] h1 B) (ix4 a i b j)
        = B (ix2 i j) := by
      refine (broadcastInDim_apply _ h3 _ (ix4 a i b j) (ix4 (0 : Fin 1) i (0 : Fin 1) j) ?_).trans ?_
      · intro ax
        match ax with
        | ⟨0, _⟩ => rfl
        | ⟨1, _⟩ =>
          show i.val = if p = 1 then 0 else i.val
          split
          · have := i.isLt; omega
          · rfl
        | ⟨2, _⟩ => rfl
        | ⟨3, _⟩ =>
          show j.val = if q = 1 then 0 else j.val
          split
          · have := j.isLt; omega
          · rfl
      · refine broadcastInDim_apply _ h1 B _ (ix2 i j) (fun ax => ?_)
        match ax with
        | ⟨0, _⟩ =>
          show i.val = if p = 1 then 0 else i.val
          split
          · have := i.isLt; omega
          · rfl
        | ⟨1, _⟩ =>
          show j.val = if q = 1 then 0 else j.val
          split
          · have := j.isLt; omega
          · rfl
    rw [eA, eB]

/-! ## The selector matrices and the block-diagonal weight matrices as the region finds them -/

variable (m : (ℓ : Loc nD τ sig) → Buf (Elt Ideal) ℓ) (c : Dev nD)

/-- The all-ones 3 × 1 matrix: the constant one, broadcast. -/
abbrev ones31 : FVec Ideal S3x1 .f32 := broadcastInDim S3x1 ![] bcast_S_S3x1 (constant (F := Ideal) S_ .f32 0x3F800000#32)

/-- The all-ones 1 × 3 matrix: the constant one, broadcast. -/
abbrev ones13 : FVec Ideal S1x3 .f32 := broadcastInDim S1x3 ![] bcast_S_S1x3 (constant (F := Ideal) S_ .f32 0x3F800000#32)

/-- The float word 0x3F800000 is the number one. -/
theorem one_word : Ideal.ofBits .f32 0x3F800000#32 = 1 := IdealRules.sign_bit.ideal_onePat .f32

/-- The first layer's 5 × 3 weight matrix as launched. -/
abbrev W1 : S5x3.Idx → EReal := m ((c : Thread nD τ).loc main_arg2)

/-- The second layer's 5 × 5 weight matrix as launched. -/
abbrev W2 : S5x5.Idx → EReal := m ((c : Thread nD τ).loc main_arg4)

/-- The third layer's 1 × 5 weight matrix as launched. -/
abbrev W3 : S1x5.Idx → EReal := m ((c : Thread nD τ).loc main_arg6)

/-- The row selector as the operations' term: the Kronecker product of the identity and the all-ones column. -/
theorem V_sel_rows : @Eq (S96x32.Idx → EReal) (V m c main_v14)
    (shapeCast S96x32
      (mulf (F := Ideal) (φ := .f32)
        (broadcastInDim S32x3x32x1 ![0, 1, 2, 3] bcast_S32x1x32x1_S32x3x32x1_0_1_2_3
          (broadcastInDim S32x1x32x1 ![0, 2] bcast_S32x32_S32x1x32x1_0_2 eyeT))
        (broadcastInDim S32x3x32x1 ![0, 1, 2, 3] bcast_S1x3x1x1_S32x3x32x1_0_1_2_3
          (broadcastInDim S1x3x1x1 ![1, 3] bcast_S3x1_S1x3x1x1_1_3 ones31)))
      shapeCasts_S32x3x32x1_S96x32) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

/-- The row selector at (j, k): one when row j lies in group k (j / 3 = k), zero otherwise. -/
theorem sel_rows (j : Fin 96) (k : Fin 32) :
    @Eq EReal ((V m c main_v14 : S96x32.Idx → EReal) (ix2 j k)) (if j.val / 3 = k.val then 1 else 0) := by
  refine (congrFun (V_sel_rows m c) (ix2 j k)).trans ?_
  refine (kron_apply eyeT ones31 _ _ _ _ _ rfl j k ⟨j.val / 3, by omega⟩ ⟨j.val % 3, Nat.mod_lt _ (by decide)⟩ k (0 : Fin 1)
    (by show j.val = j.val / 3 * 3 + j.val % 3; omega) (by show k.val = k.val * 1 + 0; omega)).trans ?_
  rw [eyeT_apply]
  show (if j.val / 3 = k.val then (1 : EReal) else 0) * Ideal.ofBits .f32 0x3F800000#32 = _
  rw [one_word, mul_one]

/-- The column selector as the operations' term: the Kronecker product of the identity and the all-ones row. -/
theorem V_sel_cols : @Eq (S32x96.Idx → EReal) (V m c main_v16)
    (shapeCast S32x96
      (mulf (F := Ideal) (φ := .f32)
        (broadcastInDim S32x1x32x3 ![0, 1, 2, 3] bcast_S32x1x32x1_S32x1x32x3_0_1_2_3
          (broadcastInDim S32x1x32x1 ![0, 2] bcast_S32x32_S32x1x32x1_0_2 eyeT))
        (broadcastInDim S32x1x32x3 ![0, 1, 2, 3] bcast_S1x1x1x3_S32x1x32x3_0_1_2_3
          (broadcastInDim S1x1x1x3 ![1, 3] bcast_S1x3_S1x1x1x3_1_3 ones13)))
      shapeCasts_S32x1x32x3_S32x96) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

/-- The column selector at (k, j): one when column j lies in group k (k = j / 3), zero otherwise. -/
theorem sel_cols (k : Fin 32) (j : Fin 96) :
    @Eq EReal ((V m c main_v16 : S32x96.Idx → EReal) (ix2 k j)) (if k.val = j.val / 3 then 1 else 0) := by
  refine (congrFun (V_sel_cols m c) (ix2 k j)).trans ?_
  refine (kron_apply eyeT ones13 _ _ _ _ _ rfl k j k (0 : Fin 1) ⟨j.val / 3, by omega⟩ ⟨j.val % 3, Nat.mod_lt _ (by decide)⟩
    (by show k.val = k.val * 1 + 0; omega) (by show j.val = j.val / 3 * 3 + j.val % 3; omega)).trans ?_
  rw [eyeT_apply]
  show (if k.val = j.val / 3 then (1 : EReal) else 0) * Ideal.ofBits .f32 0x3F800000#32 = _
  rw [one_word, mul_one]

/-- The first layer's block-diagonal weights as the operations' term: the Kronecker product of the identity and the
    transposed 5 × 3 weight matrix. -/
theorem V_w1_blocks : @Eq (S96x160.Idx → EReal) (V m c main_v21)
    (shapeCast S96x160
      (mulf (F := Ideal) (φ := .f32)
        (broadcastInDim S32x3x32x5 ![0, 1, 2, 3] bcast_S32x1x32x1_S32x3x32x5_0_1_2_3
          (broadcastInDim S32x1x32x1 ![0, 2] bcast_S32x32_S32x1x32x1_0_2 eyeT))
        (broadcastInDim S32x3x32x5 ![0, 1, 2, 3] bcast_S1x3x1x5_S32x3x32x5_0_1_2_3
          (broadcastInDim S1x3x1x5 ![1, 3] bcast_S3x5_S1x3x1x5_1_3
            (transpose S3x5 [1, 0] (W1 m c) transposes_S5x3_S3x5_1_0))))
      shapeCasts_S32x3x32x5_S96x160) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

/-- The first layer's block-diagonal weights at (j, q): inside the diagonal block (j / 3 = q / 5) the weight of output
    unit q % 5 on input coordinate j % 3, zero outside. -/
theorem w1_blocks (j : Fin 96) (q : Fin 160) :
    @Eq EReal ((V m c main_v21 : S96x160.Idx → EReal) (ix2 j q))
      ((if j.val / 3 = q.val / 5 then 1 else 0)
        * W1 m c (ix2 ⟨q.val % 5, Nat.mod_lt _ (by decide)⟩ ⟨j.val % 3, Nat.mod_lt _ (by decide)⟩)) := by
  refine (congrFun (V_w1_blocks m c) (ix2 j q)).trans ?_
  refine (kron_apply (p := 3) (q := 5) (P := 96) (Q := 160) eyeT (transpose S3x5 [1, 0] (W1 m c) transposes_S5x3_S3x5_1_0) _ _ _ _ _ rfl j q ⟨j.val / 3, by omega⟩ ⟨j.val % 3, Nat.mod_lt _ (by decide)⟩
    ⟨q.val / 5, by omega⟩ ⟨q.val % 5, Nat.mod_lt _ (by decide)⟩
    (by show j.val = j.val / 3 * 3 + j.val % 3; omega) (by show q.val = q.val / 5 * 5 + q.val % 5; omega)).trans ?_
  rw [eyeT_apply, transpose_ix2_apply]

/-- The third layer's block-diagonal weights as the operations' term: the Kronecker product of the identity and the
    transposed 1 × 5 weight matrix. -/
theorem V_w3_blocks : @Eq (S160x32.Idx → EReal) (V m c main_v25)
    (shapeCast S160x32
      (mulf (F := Ideal) (φ := .f32)
        (broadcastInDim S32x5x32x1 ![0, 1, 2, 3] bcast_S32x1x32x1_S32x5x32x1_0_1_2_3
          (broadcastInDim S32x1x32x1 ![0, 2] bcast_S32x32_S32x1x32x1_0_2 eyeT))
        (broadcastInDim S32x5x32x1 ![0, 1, 2, 3] bcast_S1x5x1x1_S32x5x32x1_0_1_2_3
          (broadcastInDim S1x5x1x1 ![1, 3] bcast_S5x1_S1x5x1x1_1_3
            (transpose S5x1 [1, 0] (W3 m c) transposes_S1x5_S5x1_1_0))))
      shapeCasts_S32x5x32x1_S160x32) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

/-- The third layer's block-diagonal weights at (r, k): inside the diagonal block (r / 5 = k) the weight on hidden unit
    r % 5, zero outside. -/
theorem w3_blocks (r : Fin 160) (k : Fin 32) :
    @Eq EReal ((V m c main_v25 : S160x32.Idx → EReal) (ix2 r k))
      ((if r.val / 5 = k.val then 1 else 0) * W3 m c (ix2 (0 : Fin 1) ⟨r.val % 5, Nat.mod_lt _ (by decide)⟩)) := by
  refine (congrFun (V_w3_blocks m c) (ix2 r k)).trans ?_
  refine (kron_apply (p := 5) (q := 1) (P := 160) (Q := 32) eyeT (transpose S5x1 [1, 0] (W3 m c) transposes_S1x5_S5x1_1_0) _ _ _ _ _ rfl r k ⟨r.val / 5, by omega⟩ ⟨r.val % 5, Nat.mod_lt _ (by decide)⟩ k (0 : Fin 1)
    (by show r.val = r.val / 5 * 5 + r.val % 5; omega) (by show k.val = k.val * 1 + 0; omega)).trans ?_
  rw [eyeT_apply, transpose_ix2_apply]

/-- The second layer's block-diagonal weights as the operations' term: the Kronecker product of the identity and the
    transposed 5 × 5 weight matrix. -/
theorem V_w2_blocks : @Eq (S160x160.Idx → EReal) (V m c main_v23)
    (shapeCast S160x160
      (mulf (F := Ideal) (φ := .f32)
        (broadcastInDim S32x5x32x5 ![0, 1, 2, 3] bcast_S32x1x32x1_S32x5x32x5_0_1_2_3
          (broadcastInDim S32x1x32x1 ![0, 2] bcast_S32x32_S32x1x32x1_0_2 eyeT))
        (broadcastInDim S32x5x32x5 ![0, 1, 2, 3] bcast_S1x5x1x5_S32x5x32x5_0_1_2_3
          (broadcastInDim S1x5x1x5 ![1, 3] bcast_S5x5_S1x5x1x5_1_3
            (transpose S5x5 [1, 0] (W2 m c) transposes_S5x5_S5x5_1_0))))
      shapeCasts_S32x5x32x5_S160x160) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results
  rfl

/-- The second layer's block-diagonal weights at (r, q): inside the diagonal block (r / 5 = q / 5) the weight of output
    unit q % 5 on hidden unit r % 5, zero outside. -/
theorem w2_blocks (r q : Fin 160) :
    @Eq EReal ((V m c main_v23 : S160x160.Idx → EReal) (ix2 r q))
      ((if r.val / 5 = q.val / 5 then 1 else 0)
        * W2 m c (ix2 ⟨q.val % 5, Nat.mod_lt _ (by decide)⟩ ⟨r.val % 5, Nat.mod_lt _ (by decide)⟩)) := by
  refine (congrFun (V_w2_blocks m c) (ix2 r q)).trans ?_
  refine (kron_apply (p := 5) (q := 5) (P := 160) (Q := 160) eyeT (transpose S5x5 [1, 0] (W2 m c) transposes_S5x5_S5x5_1_0) _ _ _ _ _ rfl r q ⟨r.val / 5, by omega⟩ ⟨r.val % 5, Nat.mod_lt _ (by decide)⟩
    ⟨q.val / 5, by omega⟩ ⟨q.val % 5, Nat.mod_lt _ (by decide)⟩
    (by show r.val = r.val / 5 * 5 + r.val % 5; omega) (by show q.val = q.val / 5 * 5 + q.val % 5; omega)).trans ?_
  rw [eyeT_apply, transpose_ix2_apply]

end Cert.KernelIdeal.HostArr

end
-- ==== Proof.HostTile.lean ====
/-
  The arrays the host builds by tiling and flattening before the one kernel call, each read at an index:
  the neighbour array flattened to rows of 96, the component selector (the 3×3 identity stacked 32 times),
  and the three bias rows (each bias repeated 32 times along one row).
-/
import proofs.«111744_j22539988370035_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.HostArr

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- A `[500000, 32, 3]` array viewed as `[500000, 96]` reads, at column `j` of row `n`, the operand at
    `(n, j / 3, j % 3)`: the two indices have the same row-major position. -/
theorem flat_96_apply (x : S500000x32x3.Idx → EReal) (n : Fin 500000) (j : Fin 96) :
    shapeCast S500000x96 x shapeCasts_S500000x32x3_S500000x96 (ix2 n j)
      = x (ix3 n ⟨j.val / 3, Nat.div_lt_of_lt_mul j.isLt⟩ ⟨j.val % 3, Nat.mod_lt _ (by decide)⟩) := by
  refine shapeCast_apply x _ _ _ ?_
  rw [Shape.rowMajor_val_three, Shape.rowMajor_val_two]
  show (n.val * 32 + j.val / 3) * 3 + j.val % 3 = n.val * 96 + j.val
  omega

/-- The flattened neighbour array reads the neighbour array at the row-major split of its column:
    column `j` of row `n` is neighbour `j / 3`, component `j % 3`. -/
theorem nbr_flat (n : Fin 500000) (j : Fin 96) :
    (V m c main_v0 : S500000x96.Idx → EReal) (ix2 n j)
      = (m ((c : Thread nD τ).loc main_arg1) : S500000x32x3.Idx → EReal)
          (ix3 n ⟨j.val / 3, Nat.div_lt_of_lt_mul j.isLt⟩ ⟨j.val % 3, Nat.mod_lt _ (by decide)⟩) := by
  have e : (V m c main_v0 : S500000x96.Idx → EReal)
      = shapeCast S500000x96 (m ((c : Thread nD τ).loc main_arg1) : S500000x32x3.Idx → EReal)
          shapeCasts_S500000x32x3_S500000x96 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e]
  exact flat_96_apply _ n j

/-- `eye 3` at an index: the convert of "row + 0 = column" on `[3, 3]` is 1 on the diagonal and 0 off it. -/
theorem eye3_apply (b d : Fin 3) :
    (uitofp (F := Ideal) .f32 (cmpi .eq (addi (iotaInDim S3x3 32 0) (broadcastInDim S3x3 ![] bcast_S_S3x3 (constantI S_ 32 0#32)))
        (iotaInDim S3x3 32 1)) : S3x3.Idx → EReal) (ix2 b d)
      = if b.val = d.val then 1 else 0 := by
  have key : ∀ b d : Fin 3, (IntOp.cmpi .eq (IntOp.addi (BitVec.ofNat 32 b.val) 0#32) (BitVec.ofNat 32 d.val)).toNat
      = if b.val = d.val then 1 else 0 := by decide
  show (((IntOp.cmpi .eq (IntOp.addi (BitVec.ofNat 32 b.val) 0#32) (BitVec.ofNat 32 d.val)).toNat : ℝ) : EReal) = _
  rw [key]
  by_cases h : b.val = d.val
  · rw [if_pos h, if_pos h, Nat.cast_one, EReal.coe_one]
  · rw [if_neg h, if_neg h, Nat.cast_zero, EReal.coe_zero]

/-- A `[32, 3, 1, 3]` array viewed as `[96, 3]` reads, at `(j, d)`, the operand at `(j / 3, j % 3, 0, d)`. -/
theorem tile3_outer_apply (X : S32x3x1x3.Idx → EReal) (j : Fin 96) (d : Fin 3) :
    shapeCast S96x3 X shapeCasts_S32x3x1x3_S96x3 (ix2 j d)
      = X (ix4 (⟨j.val / 3, Nat.div_lt_of_lt_mul j.isLt⟩ : Fin 32) (⟨j.val % 3, Nat.mod_lt _ (by decide)⟩ : Fin 3) (0 : Fin 1) d) := by
  refine shapeCast_apply X _ _ _ ?_
  rw [Shape.rowMajor_val_four, Shape.rowMajor_val_two]
  show ((j.val / 3 * 3 + j.val % 3) * 1 + 0) * 3 + d.val = j.val * 3 + d.val
  omega

/-- A `[1, 3, 1, 3]` array broadcast to `[32, 3, 1, 3]` reads, at `(a, b, z, d)`, the operand at `(0, b, 0, d)`. -/
theorem tile3_bcast_apply (Y : S1x3x1x3.Idx → EReal) (a : Fin 32) (b : Fin 3) (z : Fin 1) (d : Fin 3) :
    broadcastInDim S32x3x1x3 ![0, 1, 2, 3] bcast_S1x3x1x3_S32x3x1x3_0_1_2_3 Y (ix4 a b z d)
      = Y (ix4 (0 : Fin 1) b (0 : Fin 1) d) :=
  broadcastInDim_apply _ bcast_S1x3x1x3_S32x3x1x3_0_1_2_3 Y _ _ (fun ax => match ax with
    | ⟨0, _⟩ => by show 0 = if (1 : Nat) = 1 then 0 else a.val; rw [if_pos rfl]
    | ⟨1, _⟩ => by show b.val = if (3 : Nat) = 1 then 0 else b.val; rw [if_neg (by decide)]
    | ⟨2, _⟩ => by show 0 = if (1 : Nat) = 1 then 0 else z.val; rw [if_pos rfl]
    | ⟨3, _⟩ => by show d.val = if (3 : Nat) = 1 then 0 else d.val; rw [if_neg (by decide)])

/-- A `[3, 3]` array viewed as `[1, 3, 1, 3]` reads, at `(0, b, 0, d)`, the operand at `(b, d)`. -/
theorem tile3_inner_apply (Z : S3x3.Idx → EReal) (b d : Fin 3) :
    shapeCast S1x3x1x3 Z shapeCasts_S3x3_S1x3x1x3 (ix4 (0 : Fin 1) b (0 : Fin 1) d) = Z (ix2 b d) := by
  refine shapeCast_apply Z _ _ _ ?_
  rw [Shape.rowMajor_val_two, Shape.rowMajor_val_four]
  show b.val * 3 + d.val = ((0 * 3 + b.val) * 1 + 0) * 3 + d.val
  omega

/-- The component selector, `eye 3` stacked 32 times: row `j` has its one at column `j % 3`. -/
theorem sel_comp (j : Fin 96) (d : Fin 3) :
    (V m c main_v19 : S96x3.Idx → EReal) (ix2 j d) = (if j.val % 3 = d.val then 1 else 0 : EReal) := by
  have e : (V m c main_v19 : S96x3.Idx → EReal)
      = shapeCast S96x3 (broadcastInDim S32x3x1x3 ![0, 1, 2, 3] bcast_S1x3x1x3_S32x3x1x3_0_1_2_3
          (shapeCast S1x3x1x3 (uitofp (F := Ideal) .f32 (cmpi .eq
              (addi (iotaInDim S3x3 32 0) (broadcastInDim S3x3 ![] bcast_S_S3x3 (constantI S_ 32 0#32))) (iotaInDim S3x3 32 1)))
            shapeCasts_S3x3_S1x3x1x3))
          shapeCasts_S32x3x1x3_S96x3 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e, tile3_outer_apply, tile3_bcast_apply, tile3_inner_apply]
  exact eye3_apply _ d

/-- A `[32, 5]` array viewed as `[160]` reads, at `q`, the operand at `(q / 5, q % 5)`. -/
theorem flat_160_apply (Y : S32x5.Idx → EReal) (q : Fin 160) :
    shapeCast S160 Y shapeCasts_S32x5_S160 (ix1 q)
      = Y (ix2 (⟨q.val / 5, Nat.div_lt_of_lt_mul q.isLt⟩ : Fin 32) (⟨q.val % 5, Nat.mod_lt _ (by decide)⟩ : Fin 5)) := by
  refine shapeCast_apply Y _ _ _ ?_
  rw [Shape.rowMajor_val_two, Shape.rowMajor_val_one]
  show q.val / 5 * 5 + q.val % 5 = q.val
  omega

/-- A `[1, 5]` row broadcast to `[32, 5]` reads, at `(a, b)`, the row at `b`. -/
theorem rows_32x5_apply (Z : S1x5.Idx → EReal) (a : Fin 32) (b : Fin 5) :
    broadcastInDim S32x5 ![0, 1] bcast_S1x5_S32x5_0_1 Z (ix2 a b) = Z (ix2 (0 : Fin 1) b) :=
  broadcastInDim_apply _ bcast_S1x5_S32x5_0_1 Z _ _ (fun ax => match ax with
    | ⟨0, _⟩ => by show 0 = if (1 : Nat) = 1 then 0 else a.val; rw [if_pos rfl]
    | ⟨1, _⟩ => by show b.val = if (5 : Nat) = 1 then 0 else b.val; rw [if_neg (by decide)])

/-- A vector of 5 repeated 32 times along one row of 160: entry `q` is the vector's entry `q % 5`. -/
theorem tile5_apply (W : S5.Idx → EReal) (q : Fin 160) :
    shapeCast S1x160 (shapeCast S160 (broadcastInDim S32x5 ![0, 1] bcast_S1x5_S32x5_0_1
        (shapeCast S1x5 W shapeCasts_S5_S1x5)) shapeCasts_S32x5_S160) shapeCasts_S160_S1x160 (ix2 (0 : Fin 1) q)
      = W (ix1 (⟨q.val % 5, Nat.mod_lt _ (by decide)⟩ : Fin 5)) := by
  rw [shapeCast_a_1a_apply, flat_160_apply, rows_32x5_apply, shapeCast_a_1a_apply]

/-- The first bias row: the bias of the first layer repeated 32 times. -/
theorem b1_tiled (q : Fin 160) :
    (V m c main_v29 : S1x160.Idx → EReal) (ix2 (0 : Fin 1) q)
      = (m ((c : Thread nD τ).loc main_arg3) : S5.Idx → EReal) (ix1 (⟨q.val % 5, Nat.mod_lt _ (by decide)⟩ : Fin 5)) := by
  have e : (V m c main_v29 : S1x160.Idx → EReal)
      = shapeCast S1x160 (shapeCast S160 (broadcastInDim S32x5 ![0, 1] bcast_S1x5_S32x5_0_1
          (shapeCast S1x5 (m ((c : Thread nD τ).loc main_arg3) : S5.Idx → EReal) shapeCasts_S5_S1x5))
          shapeCasts_S32x5_S160) shapeCasts_S160_S1x160 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e]
  exact tile5_apply _ q

/-- The second bias row: the bias of the second layer repeated 32 times. -/
theorem b2_tiled (q : Fin 160) :
    (V m c main_v33 : S1x160.Idx → EReal) (ix2 (0 : Fin 1) q)
      = (m ((c : Thread nD τ).loc main_arg5) : S5.Idx → EReal) (ix1 (⟨q.val % 5, Nat.mod_lt _ (by decide)⟩ : Fin 5)) := by
  have e : (V m c main_v33 : S1x160.Idx → EReal)
      = shapeCast S1x160 (shapeCast S160 (broadcastInDim S32x5 ![0, 1] bcast_S1x5_S32x5_0_1
          (shapeCast S1x5 (m ((c : Thread nD τ).loc main_arg5) : S5.Idx → EReal) shapeCasts_S5_S1x5))
          shapeCasts_S32x5_S160) shapeCasts_S160_S1x160 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e]
  exact tile5_apply _ q

/-- A `[32, 1]` array viewed as `[32]` reads, at `k`, the operand at `(k, 0)`. -/
theorem flat_32_apply (Y : S32x1.Idx → EReal) (k : Fin 32) :
    shapeCast S32 Y shapeCasts_S32x1_S32 (ix1 k) = Y (ix2 k (0 : Fin 1)) := by
  refine shapeCast_apply Y _ _ _ ?_
  rw [Shape.rowMajor_val_two, Shape.rowMajor_val_one]
  show k.val * 1 + 0 = k.val
  omega

/-- A `[1, 1]` array broadcast to `[32, 1]` reads its one entry everywhere. -/
theorem rows_32x1_apply (Z : S1x1.Idx → EReal) (a : Fin 32) (b : Fin 1) :
    broadcastInDim S32x1 ![0, 1] bcast_S1x1_S32x1_0_1 Z (ix2 a b) = Z (ix2 (0 : Fin 1) (0 : Fin 1)) :=
  broadcastInDim_apply _ bcast_S1x1_S32x1_0_1 Z _ _ (fun ax => match ax with
    | ⟨0, _⟩ => by show 0 = if (1 : Nat) = 1 then 0 else a.val; rw [if_pos rfl]
    | ⟨1, _⟩ => by show 0 = if (1 : Nat) = 1 then 0 else b.val; rw [if_pos rfl])

/-- A vector of one entry repeated 32 times along one row: every entry is that one. -/
theorem tile1_apply (W : S1.Idx → EReal) (k : Fin 32) :
    shapeCast S1x32 (shapeCast S32 (broadcastInDim S32x1 ![0, 1] bcast_S1x1_S32x1_0_1
        (shapeCast S1x1 W shapeCasts_S1_S1x1)) shapeCasts_S32x1_S32) shapeCasts_S32_S1x32 (ix2 (0 : Fin 1) k)
      = W (ix1 (0 : Fin 1)) := by
  rw [shapeCast_a_1a_apply, flat_32_apply, rows_32x1_apply, shapeCast_a_1a_apply]

/-- The third bias row: the one bias of the last layer repeated 32 times. -/
theorem b3_tiled (k : Fin 32) :
    (V m c main_v37 : S1x32.Idx → EReal) (ix2 (0 : Fin 1) k)
      = (m ((c : Thread nD τ).loc main_arg7) : S1.Idx → EReal) (ix1 (0 : Fin 1)) := by
  have e : (V m c main_v37 : S1x32.Idx → EReal)
      = shapeCast S1x32 (shapeCast S32 (broadcastInDim S32x1 ![0, 1] bcast_S1x1_S32x1_0_1
          (shapeCast S1x1 (m ((c : Thread nD τ).loc main_arg7) : S1.Idx → EReal) shapeCasts_S1_S1x1))
          shapeCasts_S32x1_S32) shapeCasts_S32_S1x32 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    rfl
  rw [e]
  exact tile1_apply _ k

end Cert.KernelIdeal.HostArr

end
-- ==== Proof.VelBlocks.lean ====
/-
  The windows' blocks at a grid point.

  The grid has 250 points. The nine constant matrices are each one block that never moves, so at every point the body
  sees the whole matrix; point t sees rows 2000·t … 2000·t + 1999 of the positions and of the flattened neighbours and
  writes the same rows of the result. Here: each constant block at an entry (what the host built there), and rows of
  the two streamed blocks as rows of the argument arrays.
-/
import proofs.«111744_j22539988370035_2_alg».proof.Proof.Gen.KernelIdeal.Value
import proofs.«111744_j22539988370035_2_alg».proof.Proof.VelBody
import proofs.«111744_j22539988370035_2_alg».proof.Proof.HostKron
import proofs.«111744_j22539988370035_2_alg».proof.Proof.HostTile
import Idealize.ShloMosaic.Lib.Pipeline.Value

-- one declaration at a time: a fact decided over all 250 grid points holds a lot of memory while it is checked
set_option Elab.async false

noncomputable section

namespace Cert.KernelIdeal.Arr

open Cert.KernelIdeal Cert.KernelIdeal.Gen Idealize.ShloMosaic Idealize.ShloMosaic.TcCoe Idealize.ShloMosaic.ValueIdx Idealize.SL.Sem
open Cert.VelSpec Cert.KernelIdeal.Pay Cert.KernelIdeal.HostArr

variable (m : (ℓ : Loc nD τ sig) → Buf (Elt Ideal) ℓ)

/-- The printed index maps over the grid: the nine constant windows stay at block (0, 0); the two streamed inputs and
    the output are at block (t, 0). -/
theorem idx_facts : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-! ## The nine constant blocks at an entry -/

theorem blk0_apply (c : Dev nD) (t : Fin cfg0.N) (j : Fin 96) (k : Fin 32) :
    @Eq EReal (iblk m c 0 t (ix2 j k)) (if j.val / 3 = k.val then 1 else 0) := by
  obtain ⟨fa, fb⟩ := (idx_facts t).1
  show @Eq EReal ((V m c main_v14 : S96x32.Idx → EReal) (((cfg0.win 0).blk t).view.emb (ix2 j k))) _
  rw [show ((cfg0.win 0).blk t).view.emb (ix2 j k) = ix2 j k from funext fun ax => Fin.ext (by
    match ax with
    | ⟨0, _⟩ => show win0_0.index t (0 : Fin 2) * 96 + 1 * (j).val = (j).val; omega
    | ⟨1, _⟩ => show win0_0.index t (1 : Fin 2) * 32 + 1 * (k).val = (k).val; omega)]
  exact sel_rows m c j k

theorem blk1_apply (c : Dev nD) (t : Fin cfg0.N) (k : Fin 32) (j : Fin 96) :
    @Eq EReal (iblk m c 1 t (ix2 k j)) (if k.val = j.val / 3 then 1 else 0) := by
  obtain ⟨fa, fb⟩ := (idx_facts t).2.1
  show @Eq EReal ((V m c main_v16 : S32x96.Idx → EReal) (((cfg0.win 1).blk t).view.emb (ix2 k j))) _
  rw [show ((cfg0.win 1).blk t).view.emb (ix2 k j) = ix2 k j from funext fun ax => Fin.ext (by
    match ax with
    | ⟨0, _⟩ => show win0_1.index t (0 : Fin 2) * 32 + 1 * (k).val = (k).val; omega
    | ⟨1, _⟩ => show win0_1.index t (1 : Fin 2) * 96 + 1 * (j).val = (j).val; omega)]
  exact sel_cols m c k j

theorem blk2_apply (c : Dev nD) (t : Fin cfg0.N) (j : Fin 96) (d : Fin 3) :
    @Eq EReal (iblk m c 2 t (ix2 j d)) (if j.val % 3 = d.val then 1 else 0) := by
  obtain ⟨fa, fb⟩ := (idx_facts t).2.2.1
  show @Eq EReal ((V m c main_v19 : S96x3.Idx → EReal) (((cfg0.win 2).blk t).view.emb (ix2 j d))) _
  rw [show ((cfg0.win 2).blk t).view.emb (ix2 j d) = ix2 j d from funext fun ax => Fin.ext (by
    match ax with
    | ⟨0, _⟩ => show win0_2.index t (0 : Fin 2) * 96 + 1 * (j).val = (j).val; omega
    | ⟨1, _⟩ => show win0_2.index t (1 : Fin 2) * 3 + 1 * (d).val = (d).val; omega)]
  exact sel_comp m c j d

theorem blk3_apply (c : Dev nD) (t : Fin cfg0.N) (j : Fin 96) (q : Fin 160) :
    @Eq EReal (iblk m c 3 t (ix2 j q)) ((if j.val / 3 = q.val / 5 then 1 else 0) * (fun (h : Fin 5) (e : Fin 3) => (m ((c : Thread nD τ).loc main_arg2) : S5x3.Idx → EReal) (ix2 h e)) (ch q) (cd j)) := by
  obtain ⟨fa, fb⟩ := (idx_facts t).2.2.2.1
  show @Eq EReal ((V m c main_v21 : S96x160.Idx → EReal) (((cfg0.win 3).blk t).view.emb (ix2 j q))) _
  rw [show ((cfg0.win 3).blk t).view.emb (ix2 j q) = ix2 j q from funext fun ax => Fin.ext (by
    match ax with
    | ⟨0, _⟩ => show win0_3.index t (0 : Fin 2) * 96 + 1 * (j).val = (j).val; omega
    | ⟨1, _⟩ => show win0_3.index t (1 : Fin 2) * 160 + 1 * (q).val = (q).val; omega)]
  exact w1_blocks m c j q

theorem blk4_apply (c : Dev nD) (t : Fin cfg0.N) (q : Fin 160) :
    @Eq EReal (iblk m c 4 t (ix2 (0 : Fin 1) q)) ((fun (h : Fin 5) => (m ((c : Thread nD τ).loc main_arg3) : S5.Idx → EReal) (ix1 h)) (ch q)) := by
  obtain ⟨fa, fb⟩ := (idx_facts t).2.2.2.2.1
  show @Eq EReal ((V m c main_v29 : S1x160.Idx → EReal) (((cfg0.win 4).blk t).view.emb (ix2 (0 : Fin 1) q))) _
  rw [show ((cfg0.win 4).blk t).view.emb (ix2 (0 : Fin 1) q) = ix2 (0 : Fin 1) q from funext fun ax => Fin.ext (by
    match ax with
    | ⟨0, _⟩ => show win0_4.index t (0 : Fin 2) * 1 + 1 * ((0 : Fin 1)).val = ((0 : Fin 1)).val; omega
    | ⟨1, _⟩ => show win0_4.index t (1 : Fin 2) * 160 + 1 * (q).val = (q).val; omega)]
  exact b1_tiled m c q

theorem blk5_apply (c : Dev nD) (t : Fin cfg0.N) (p q : Fin 160) :
    @Eq EReal (iblk m c 5 t (ix2 p q)) ((if p.val / 5 = q.val / 5 then 1 else 0) * (fun (g h : Fin 5) => (m ((c : Thread nD τ).loc main_arg4) : S5x5.Idx → EReal) (ix2 g h)) (ch q) (ch p)) := by
  obtain ⟨fa, fb⟩ := (idx_facts t).2.2.2.2.2.1
  show @Eq EReal ((V m c main_v23 : S160x160.Idx → EReal) (((cfg0.win 5).blk t).view.emb (ix2 p q))) _
  rw [show ((cfg0.win 5).blk t).view.emb (ix2 p q) = ix2 p q from funext fun ax => Fin.ext (by
    match ax with
    | ⟨0, _⟩ => show win0_5.index t (0 : Fin 2) * 160 + 1 * (p).val = (p).val; omega
    | ⟨1, _⟩ => show win0_5.index t (1 : Fin 2) * 160 + 1 * (q).val = (q).val; omega)]
  exact w2_blocks m c p q

theorem blk6_apply (c : Dev nD) (t : Fin cfg0.N) (q : Fin 160) :
    @Eq EReal (iblk m c 6 t (ix2 (0 : Fin 1) q)) ((fun (h : Fin 5) => (m ((c : Thread nD τ).loc main_arg5) : S5.Idx → EReal) (ix1 h)) (ch q)) := by
  obtain ⟨fa, fb⟩ := (idx_facts t).2.2.2.2.2.2.1
  show @Eq EReal ((V m c main_v33 : S1x160.Idx → EReal) (((cfg0.win 6).blk t).view.emb (ix2 (0 : Fin 1) q))) _
  rw [show ((cfg0.win 6).blk t).view.emb (ix2 (0 : Fin 1) q) = ix2 (0 : Fin 1) q from funext fun ax => Fin.ext (by
    match ax with
    | ⟨0, _⟩ => show win0_6.index t (0 : Fin 2) * 1 + 1 * ((0 : Fin 1)).val = ((0 : Fin 1)).val; omega
    | ⟨1, _⟩ => show win0_6.index t (1 : Fin 2) * 160 + 1 * (q).val = (q).val; omega)]
  exact b2_tiled m c q

theorem blk7_apply (c : Dev nD) (t : Fin cfg0.N) (p : Fin 160) (k : Fin 32) :
    @Eq EReal (iblk m c 7 t (ix2 p k)) ((if p.val / 5 = k.val then 1 else 0) * (fun (h : Fin 5) => (m ((c : Thread nD τ).loc main_arg6) : S1x5.Idx → EReal) (ix2 (0 : Fin 1) h)) (ch p)) := by
  obtain ⟨fa, fb⟩ := (idx_facts t).2.2.2.2.2.2.2.1
  show @Eq EReal ((V m c main_v25 : S160x32.Idx → EReal) (((cfg0.win 7).blk t).view.emb (ix2 p k))) _
  rw [show ((cfg0.win 7).blk t).view.emb (ix2 p k) = ix2 p k from funext fun ax => Fin.ext (by
    match ax with
    | ⟨0, _⟩ => show win0_7.index t (0 : Fin 2) * 160 + 1 * (p).val = (p).val; omega
    | ⟨1, _⟩ => show win0_7.index t (1 : Fin 2) * 32 + 1 * (k).val = (k).val; omega)]
  exact w3_blocks m c p k

theorem blk8_apply (c : Dev nD) (t : Fin cfg0.N) (k : Fin 32) :
    @Eq EReal (iblk m c 8 t (ix2 (0 : Fin 1) k)) ((m ((c : Thread nD τ).loc main_arg7) : S1.Idx → EReal) (ix1 (0 : Fin 1))) := by
  obtain ⟨fa, fb⟩ := (idx_facts t).2.2.2.2.2.2.2.2.1
  show @Eq EReal ((V m c main_v37 : S1x32.Idx → EReal) (((cfg0.win 8).blk t).view.emb (ix2 (0 : Fin 1) k))) _
  rw [show ((cfg0.win 8).blk t).view.emb (ix2 (0 : Fin 1) k) = ix2 (0 : Fin 1) k from funext fun ax => Fin.ext (by
    match ax with
    | ⟨0, _⟩ => show win0_8.index t (0 : Fin 2) * 1 + 1 * ((0 : Fin 1)).val = ((0 : Fin 1)).val; omega
    | ⟨1, _⟩ => show win0_8.index t (1 : Fin 2) * 32 + 1 * (k).val = (k).val; omega)]
  exact b3_tiled m c k

/-! ## The two streamed blocks and the output block -/

/-- The global row of row `r` of block `t`. -/
def grow (t : Fin cfg0.N) (r : Fin 2000) : Fin 500000 :=
  ⟨t.val * 2000 + r.val, by have h : t.val < 250 := lt_of_lt_of_eq t.isLt N_0; have := r.isLt; omega⟩

/-- Row r of the position block at point t is row 2000·t + r of the positions. -/
theorem prow_eq (c : Dev nD) (t : Fin cfg0.N) (r : Fin 2000) :
    pRow (iblk m c 9 t) r = fun e => (m ((c : Thread nD τ).loc main_arg0) : S500000x3.Idx → EReal) (ix2 (grow t r) e) := by
  obtain ⟨fa, fb⟩ := (idx_facts t).2.2.2.2.2.2.2.2.2.1
  funext e
  show @Eq EReal ((V m c main_arg0 : S500000x3.Idx → EReal) (((cfg0.win 9).blk t).view.emb (ix2 r e))) _
  rw [show ((cfg0.win 9).blk t).view.emb (ix2 r e) = ix2 (grow t r) e from funext fun ax => Fin.ext (by
    match ax with
    | ⟨0, _⟩ => show win0_9.index t (0 : Fin 2) * 2000 + 1 * r.val = t.val * 2000 + r.val; omega
    | ⟨1, _⟩ => show win0_9.index t (1 : Fin 2) * 3 + 1 * e.val = e.val; omega), V_main_arg0]

/-- Row r of the flattened neighbour block at point t, by neighbour and coordinate, is row 2000·t + r of the neighbours. -/
theorem xrow_eq (c : Dev nD) (t : Fin cfg0.N) (r : Fin 2000) :
    xRow (iblk m c 10 t) r = fun k e => (m ((c : Thread nD τ).loc main_arg1) : S500000x32x3.Idx → EReal) (ix3 (grow t r) k e) := by
  obtain ⟨fa, fb⟩ := (idx_facts t).2.2.2.2.2.2.2.2.2.2.1
  funext k e
  show @Eq EReal ((V m c main_v0 : S500000x96.Idx → EReal) (((cfg0.win 10).blk t).view.emb (ix2 r (col k e)))) _
  rw [show ((cfg0.win 10).blk t).view.emb (ix2 r (col k e)) = ix2 (grow t r) (col k e) from funext fun ax => Fin.ext (by
    match ax with
    | ⟨0, _⟩ => show win0_10.index t (0 : Fin 2) * 2000 + 1 * r.val = t.val * 2000 + r.val; omega
    | ⟨1, _⟩ => show win0_10.index t (1 : Fin 2) * 96 + 1 * (col k e).val = (col k e).val; omega), nbr_flat m c (grow t r) (col k e)]
  refine congrArg _ (funext fun ax => Fin.ext ?_)
  match ax with
  | ⟨0, _⟩ => rfl
  | ⟨1, _⟩ => exact congrArg Fin.val (nb_col k e)
  | ⟨2, _⟩ => exact congrArg Fin.val (cd_col k e)

/-- Entry (r, d) of the output block at point t is entry (2000·t + r, d) of the result array. -/
theorem emb11 (t : Fin cfg0.N) (r : Fin 2000) (d : Fin 3) :
    ((cfg0.win 11).blk t).view.emb (ix2 r d) = ix2 (grow t r) d := by
  obtain ⟨fa, fb⟩ := (idx_facts t).2.2.2.2.2.2.2.2.2.2.2
  exact funext fun ax => Fin.ext (by
    match ax with
    | ⟨0, _⟩ => show win0_11.index t (0 : Fin 2) * 2000 + 1 * r.val = t.val * 2000 + r.val; omega
    | ⟨1, _⟩ => show win0_11.index t (1 : Fin 2) * 3 + 1 * d.val = d.val; omega)

end Cert.KernelIdeal.Arr

end
-- ==== Proof.VelArray.lean ====
/-
  From the blocks to the whole array.

  The grid has 250 points; point t works on rows 2000·t … 2000·t + 1999 of the positions, of the flattened neighbours
  and of the result, and on the whole of each of the nine constant matrices. What point t writes back is therefore the
  body's row function of rows 2000·t + r of the argument arrays, which is the specification read through block t; and
  every row lies in the block of the point t = row / 2000, so the result array ends as the specification everywhere.
-/
import proofs.«111744_j22539988370035_2_alg».proof.Proof.VelBlocks
import Idealize.ShloMosaic.Lib.Pipeline.Value

-- one declaration at a time: a fact decided over all 250 grid points holds a lot of memory while it is checked
set_option Elab.async false

noncomputable section

namespace Cert.KernelIdeal.Arr

open Cert.KernelIdeal Cert.KernelIdeal.Gen Idealize.ShloMosaic Idealize.ShloMosaic.TcCoe Idealize.ShloMosaic.ValueIdx Idealize.SL.Sem
open Idealize.ShloMosaic.Pipeline (Dat)
open Cert.VelSpec Cert.KernelIdeal.Pay Cert.KernelIdeal.HostArr

variable (m : (ℓ : Loc nD τ sig) → Buf (Elt Ideal) ℓ) (ρ : Dev nD → PrngReg)

theorem hz : (![0, 0] : Fin 2 → Nat) = fun _ => 0 := funext fun a => by fin_cases a <;> rfl

/-! ## The result array -/

/-- The specification of core `c`'s argument arrays. -/
def Gm (c : Dev nD) : S500000x3.Idx → EReal :=
  G (m ((c : Thread nD τ).loc main_arg0) : S500000x3.Idx → EReal) (m ((c : Thread nD τ).loc main_arg1) : S500000x32x3.Idx → EReal)
    (m ((c : Thread nD τ).loc main_arg2) : S5x3.Idx → EReal) (m ((c : Thread nD τ).loc main_arg3) : S5.Idx → EReal)
    (m ((c : Thread nD τ).loc main_arg4) : S5x5.Idx → EReal) (m ((c : Thread nD τ).loc main_arg5) : S5.Idx → EReal)
    (m ((c : Thread nD τ).loc main_arg6) : S1x5.Idx → EReal) (m ((c : Thread nD τ).loc main_arg7) : S1.Idx → EReal)

/-- The body's result at entry (r, d) of point t is the specification at entry (2000·t + r, d). -/
theorem point_entry (c : Dev nD) (t : Fin cfg0.N) (r : Fin 2000) (d : Fin 3) :
    @Eq EReal (k0_pay1 (F := Ideal) (k0_pay2 (F := Ideal) (iblk m c 1 t)) (k0_pay3 (F := Ideal) (iblk m c 2 t))
        (k0_pay4 (F := Ideal) (iblk m c 9 t) (iblk m c 10 t) (iblk m c 0 t) (iblk m c 1 t)) (k0_pay5 (F := Ideal) (iblk m c 5 t))
        (k0_pay6 (F := Ideal) (iblk m c 7 t))
        (k0_pay7 (F := Ideal) (iblk m c 9 t) (iblk m c 10 t) (iblk m c 0 t) (iblk m c 1 t) (iblk m c 3 t) (iblk m c 4 t))
        (iblk m c 6 t) (iblk m c 8 t) (ix2 r d))
      (Gm m c (ix2 (grow t r) d)) := by
  refine (body_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (fun (h : Fin 5) (e : Fin 3) => (m ((c : Thread nD τ).loc main_arg2) : S5x3.Idx → EReal) (ix2 h e)) (fun (h : Fin 5) => (m ((c : Thread nD τ).loc main_arg3) : S5.Idx → EReal) (ix1 h)) (fun (g h : Fin 5) => (m ((c : Thread nD τ).loc main_arg4) : S5x5.Idx → EReal) (ix2 g h)) (fun (h : Fin 5) => (m ((c : Thread nD τ).loc main_arg5) : S5.Idx → EReal) (ix1 h)) (fun (h : Fin 5) => (m ((c : Thread nD τ).loc main_arg6) : S1x5.Idx → EReal) (ix2 (0 : Fin 1) h)) ((m ((c : Thread nD τ).loc main_arg7) : S1.Idx → EReal) (ix1 (0 : Fin 1)))
    (blk0_apply m c t) (blk1_apply m c t) (blk2_apply m c t) (blk3_apply m c t) (blk4_apply m c t) (blk5_apply m c t)
    (blk6_apply m c t) (blk7_apply m c t) (blk8_apply m c t) r d).trans ?_
  rw [prow_eq m c t r, xrow_eq m c t r]
  rfl

set_option maxHeartbeats 1000000 in
/-- What point `t` writes back is block `t` of the specification. -/
theorem flushed_eq (c : Dev nD) (t : Fin cfg0.N) :
    (dats m 0 c).flushed 11 t = ((cfg0.win 11).blk t).view.read (Elt Ideal) (Gm m c) := by
  rw [Value.flushed11]
  unfold out0_11
  rw [View.canon_unit_zero hz]
  simp only [View.ld_unit_zero (S := S2000x3) hz, View.ld_unit_zero (S := S2000x96) hz, View.ld_unit_zero (S := S96x32) hz,
    View.ld_unit_zero (S := S32x96) hz, View.ld_unit_zero (S := S96x3) hz, View.ld_unit_zero (S := S96x160) hz,
    View.ld_unit_zero (S := S160x160) hz, View.ld_unit_zero (S := S160x32) hz, View.ld_unit_zero (S := S1x160) hz,
    View.ld_unit_zero (S := S1x32) hz]
  funext y
  obtain ⟨r, d, rfl⟩ : ∃ (r : Fin 2000) (d : Fin 3), y = ix2 r d := ⟨y 0, y 1, eq_ix2 y⟩
  refine (point_entry m c t r d).trans ?_
  show _ = Gm m c (((cfg0.win 11).blk t).view.emb (ix2 r d))
  rw [emb11 t r d]

/-- An index is in point `t`'s block iff each coordinate is in the block's range on its axis. -/
theorem mem_blk (t : Fin cfg0.N) (i : S500000x3.Idx) :
    i ∈ ((cfg0.win 11).blk t).view.set ↔ ∀ a : Fin 2, win0_11.index t a * S2000x3.size a ≤ (i a).val ∧ (i a).val < win0_11.index t a * S2000x3.size a + S2000x3.size a := by
  show i ∈ ((View.whole main_v38).slice (win0_11.rect t)).set ↔ _
  rw [View.set_slice_whole, Rect.mem_set_unit]
  exact Iff.rfl

/-- Every index of the result lies in the block of the point `row / 2000`. -/
theorem cover (i : S500000x3.Idx) : ∃ t : Fin cfg0.N, (cfg0.win 11).flush t = true ∧ i ∈ ((cfg0.win 11).blk t).view.set := by
  have hi0 : (i 0).val < 500000 := (i 0).isLt
  have hi1 : (i 1).val < 3 := (i 1).isLt
  have hN : cfg0.N = 250 := N_0
  have ht : (i 0).val / 2000 < cfg0.N := by rw [hN]; omega
  obtain ⟨fa, fb⟩ := (idx_facts ⟨(i 0).val / 2000, ht⟩).2.2.2.2.2.2.2.2.2.2.2
  refine ⟨⟨(i 0).val / 2000, ht⟩, flush0_11 _, ?_⟩
  rw [mem_blk]
  intro a
  match a with
  | ⟨0, _⟩ =>
    show win0_11.index ⟨(i 0).val / 2000, ht⟩ (0 : Fin 2) * 2000 ≤ (i 0).val ∧ (i 0).val < win0_11.index ⟨(i 0).val / 2000, ht⟩ (0 : Fin 2) * 2000 + 2000
    rw [fa]
    show (i 0).val / 2000 * 2000 ≤ (i 0).val ∧ (i 0).val < (i 0).val / 2000 * 2000 + 2000
    omega
  | ⟨1, _⟩ =>
    show win0_11.index ⟨(i 0).val / 2000, ht⟩ (1 : Fin 2) * 3 ≤ (i 1).val ∧ (i 1).val < win0_11.index ⟨(i 0).val / 2000, ht⟩ (1 : Fin 2) * 3 + 3
    rw [fb]
    omega

/-- The result array after the run is the specification of the argument arrays. -/
theorem final (c : Dev nD) : (dats m 0 c).arrAt 11 cfg0.N = Gm m c :=
  (dats m 0 c).arrAt_eq_of_cover 11 (Gm m c) (fun t _ => flushed_eq m c t) cover

/-- The kernel's run: it terminates without a fault, the result array holds the specification, the arguments are unchanged. -/
theorem run : θ_run defs (onTc (τ := τ) (main (F := Ideal))) ⟨m, fun _ => 0, ρ⟩ fun r => ∀ c : Dev nD,
      r.2.mem ((c : Thread nD τ).loc main_v38) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Arr

end
-- ==== Proof.RefIsSpec.lean ====
/-
  The reference program computes the specification.

  Each operation of the reference is read at an index (the generated reading lemmas), and the chain of readings is
  folded, bottom-up, into the row-level definitions of the specification: the difference to a neighbour, its bounded
  norm, the normalised difference, the three layers of the perceptron, the weighted sum over the neighbours, and the
  last normalisation. Every lemma is stated at symbolic coordinates: a particle `n`, a neighbour `k`, a coordinate `d`.
  A broadcast reads its operand at a composed index; each such composition is identified with the index built from
  the coordinates, axis by axis. A sum of the reference starts from the zero word, which is the extended real 0; the
  rectifier's lower bound is the same word.
-/
import proofs.«111744_j22539988370035_2_alg».proof.Proof.Gen.ReferenceIdeal.Read
import proofs.«111744_j22539988370035_2_alg».proof.Proof.VelSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.VelSpec Idealize.ShloMosaic Idealize.ShloMosaic.ValueIdx

section

variable (x0 : (⟨S500000x3, .f32⟩ : BufTy).Contents (Elt Ideal)) (x1 : (⟨S500000x32x3, .f32⟩ : BufTy).Contents (Elt Ideal))

/-- One particle's position as a 3-vector. -/
abbrev posRow (n : Fin 500000) : Fin 3 → EReal := fun d => x0 (ix2 n d)

/-- One particle's neighbours as 32 3-vectors. -/
abbrev nbrRow (n : Fin 500000) : Fin 32 → Fin 3 → EReal := fun k d => x1 (ix3 n k d)

/-- The subtraction reads the neighbour at (n, k, d) and the position, broadcast over the neighbours, at (n, d). -/
theorem diff_at (n : Fin 500000) (k : Fin 32) (d : Fin 3) :
    val_main_v2 (F := Ideal) x0 x1 (ix3 n k d) = diff (posRow x0 n) (nbrRow x1 n) k d := by
  have e : idx_main_v0 (idx_main_v1 (ix3 n k d)) = ix2 n d :=
    funext fun a => Fin.ext (by match a with | ⟨0, _⟩ => rfl | ⟨1, _⟩ => rfl)
  rw [val_main_v2_apply, val_main_v1_apply, val_main_v0_apply, e, Ideal.subf_def]
  rfl

/-- The bounded norm of the difference to neighbour `k`: the sum of squares over the coordinates starts from the zero
    word, its square root is bounded below by the small word. -/
theorem norm_at (n : Fin 500000) (k : Fin 32) :
    val_main_v5 (F := Ideal) x0 x1 (ix3 n k (0 : Fin 1)) = nrm (diff (posRow x0 n) (nbrRow x1 n) k) := by
  have e : ∀ c : Fin 3, idx_main_call0_v1 (idx_main_call0_v2 (ix3 n k (0 : Fin 1))) c = ix3 n k c := fun c =>
    funext fun a => Fin.ext (by match a with | ⟨0, _⟩ => rfl | ⟨1, _⟩ => rfl | ⟨2, _⟩ => rfl)
  rw [val_main_v5_apply, val_main_v3_apply, val_main_call0_v2_apply, val_main_call0_v1_apply, val_main_v4_apply,
    val_main_cst_apply, val_main_call0_cst_apply]
  simp only [val_main_call0_v0_apply, e, diff_at, Ideal.mulf_def, Ideal.maximumf_def, Ideal.hostUnary_sqrt_def,
    Ideal.ofBits_def, Ideal.ofBits_zero_f32, zero_add]
  rfl

/-- The normalised difference: the division reads the norm, broadcast over the coordinates, at (n, k, 0). -/
theorem dir_at (n : Fin 500000) (k : Fin 32) (d : Fin 3) :
    val_main_v7 (F := Ideal) x0 x1 (ix3 n k d) = dir (posRow x0 n) (nbrRow x1 n) k d := by
  have e : idx_main_v6 (ix3 n k d) = ix3 n k (0 : Fin 1) :=
    funext fun a => Fin.ext (by match a with | ⟨0, _⟩ => rfl | ⟨1, _⟩ => rfl | ⟨2, _⟩ => rfl)
  rw [val_main_v7_apply, val_main_v6_apply, e, norm_at, diff_at, Ideal.hostDivf_def]
  rfl

end

section

variable (x0 : (⟨S500000x3, .f32⟩ : BufTy).Contents (Elt Ideal)) (x1 : (⟨S500000x32x3, .f32⟩ : BufTy).Contents (Elt Ideal))
  (x2 : (⟨S5x3, .f32⟩ : BufTy).Contents (Elt Ideal)) (x3 : (⟨S5, .f32⟩ : BufTy).Contents (Elt Ideal))
  (x4 : (⟨S5x5, .f32⟩ : BufTy).Contents (Elt Ideal)) (x5 : (⟨S5, .f32⟩ : BufTy).Contents (Elt Ideal))
  (x6 : (⟨S1x5, .f32⟩ : BufTy).Contents (Elt Ideal)) (x7 : (⟨S1, .f32⟩ : BufTy).Contents (Elt Ideal))

/-- The first layer's matrix by rows. -/
abbrev w1 : Fin 5 → Fin 3 → EReal := fun h d => x2 (ix2 h d)
/-- The first layer's offset. -/
abbrev c1 : Fin 5 → EReal := fun h => x3 (ix1 h)
/-- The second layer's matrix by rows. -/
abbrev w2 : Fin 5 → Fin 5 → EReal := fun g h => x4 (ix2 g h)
/-- The second layer's offset. -/
abbrev c2 : Fin 5 → EReal := fun g => x5 (ix1 g)
/-- The third layer's single row. -/
abbrev w3 : Fin 5 → EReal := fun h => x6 (ix2 (0 : Fin 1) h)
/-- The third layer's offset. -/
abbrev c3 : EReal := x7 (ix1 (0 : Fin 1))

/-- The first layer at (n, k, h): the contraction runs over the coordinates of the normalised difference against row
    `h` of the matrix, the offset is broadcast over particles and neighbours, the rectifier's bound is the zero word. -/
theorem hid1_at (n : Fin 500000) (k : Fin 32) (h : Fin 5) :
    val_main_v12 (F := Ideal) x0 x1 x2 x3 (ix3 n k h)
      = hid1 (w1 x2) (c1 x3) (dir (posRow x0 n) (nbrRow x1 n) k) h := by
  have el : ∀ c : Fin 3, lidx_main_v8 (ix3 n k h) c = ix3 n k c := fun c =>
    funext fun a => Fin.ext (by match a with | ⟨0, _⟩ => rfl | ⟨1, _⟩ => rfl | ⟨2, _⟩ => rfl)
  have er : ∀ c : Fin 3, ridx_main_v8 (ix3 n k h) c = ix2 h c := fun c =>
    funext fun a => Fin.ext (by match a with | ⟨0, _⟩ => rfl | ⟨1, _⟩ => rfl)
  have eb : idx_main_v9 (idx_main_v10 (ix3 n k h)) = ix1 h :=
    funext fun a => Fin.ext (by match a with | ⟨0, _⟩ => rfl)
  rw [val_main_v12_apply, val_main_v11_apply, val_main_v8_apply, val_main_v10_apply, val_main_v9_apply,
    val_main_call1_v0_apply, val_main_call1_cst_apply, eb]
  simp only [el, er, dir_at, Ideal.addf_def, Ideal.maximumf_def, Ideal.ofBits_def, Ideal.ofBits_zero_f32]
  rfl

/-- The second layer at (n, k, g). -/
theorem hid2_at (n : Fin 500000) (k : Fin 32) (g : Fin 5) :
    val_main_v17 (F := Ideal) x0 x1 x2 x3 x4 x5 (ix3 n k g)
      = hid2 (w2 x4) (c2 x5) (hid1 (w1 x2) (c1 x3) (dir (posRow x0 n) (nbrRow x1 n) k)) g := by
  have el : ∀ c : Fin 5, lidx_main_v13 (ix3 n k g) c = ix3 n k c := fun c =>
    funext fun a => Fin.ext (by match a with | ⟨0, _⟩ => rfl | ⟨1, _⟩ => rfl | ⟨2, _⟩ => rfl)
  have er : ∀ c : Fin 5, ridx_main_v13 (ix3 n k g) c = ix2 g c := fun c =>
    funext fun a => Fin.ext (by match a with | ⟨0, _⟩ => rfl | ⟨1, _⟩ => rfl)
  have eb : idx_main_v14 (idx_main_v15 (ix3 n k g)) = ix1 g :=
    funext fun a => Fin.ext (by match a with | ⟨0, _⟩ => rfl)
  rw [val_main_v17_apply, val_main_v16_apply, val_main_v13_apply, val_main_v15_apply, val_main_v14_apply,
    val_main_call2_v0_apply, val_main_call2_cst_apply, eb]
  simp only [el, er, hid1_at, Ideal.addf_def, Ideal.maximumf_def, Ideal.ofBits_def, Ideal.ofBits_zero_f32]
  rfl

/-- The third layer at (n, k, 0): the weight of neighbour `k`. -/
theorem weight_at (n : Fin 500000) (k : Fin 32) :
    val_main_v21 (F := Ideal) x0 x1 x2 x3 x4 x5 x6 x7 (ix3 n k (0 : Fin 1))
      = weight (posRow x0 n) (nbrRow x1 n) (w1 x2) (c1 x3) (w2 x4) (c2 x5) (w3 x6) (c3 x7) k := by
  have el : ∀ c : Fin 5, lidx_main_v18 (ix3 n k (0 : Fin 1)) c = ix3 n k c := fun c =>
    funext fun a => Fin.ext (by match a with | ⟨0, _⟩ => rfl | ⟨1, _⟩ => rfl | ⟨2, _⟩ => rfl)
  have er : ∀ c : Fin 5, ridx_main_v18 (ix3 n k (0 : Fin 1)) c = ix2 (0 : Fin 1) c := fun c =>
    funext fun a => Fin.ext (by match a with | ⟨0, _⟩ => rfl | ⟨1, _⟩ => rfl)
  have eb : idx_main_v19 (idx_main_v20 (ix3 n k (0 : Fin 1))) = ix1 (0 : Fin 1) :=
    funext fun a => Fin.ext (by match a with | ⟨0, _⟩ => rfl)
  rw [val_main_v21_apply, val_main_v18_apply, val_main_v20_apply, val_main_v19_apply, eb]
  simp only [el, er, hid2_at, Ideal.addf_def]
  rfl

/-- One term of the weighted sum: the product reads the weight, broadcast over the coordinates, at (n, k, 0). -/
theorem term_at (n : Fin 500000) (k : Fin 32) (d : Fin 3) :
    val_main_v23 (F := Ideal) x0 x1 x2 x3 x4 x5 x6 x7 (ix3 n k d)
      = dir (posRow x0 n) (nbrRow x1 n) k d
        * weight (posRow x0 n) (nbrRow x1 n) (w1 x2) (c1 x3) (w2 x4) (c2 x5) (w3 x6) (c3 x7) k := by
  have eb : idx_main_v22 (ix3 n k d) = ix3 n k (0 : Fin 1) :=
    funext fun a => Fin.ext (by match a with | ⟨0, _⟩ => rfl | ⟨1, _⟩ => rfl | ⟨2, _⟩ => rfl)
  rw [val_main_v23_apply, val_main_v22_apply, eb, dir_at, weight_at, Ideal.mulf_def]

/-- The weighted sum at (n, d): the sum over the neighbours starts from the zero word. -/
theorem vel_at (n : Fin 500000) (d : Fin 3) :
    val_main_v24 (F := Ideal) x0 x1 x2 x3 x4 x5 x6 x7 (ix2 n d)
      = vel (posRow x0 n) (nbrRow x1 n) (w1 x2) (c1 x3) (w2 x4) (c2 x5) (w3 x6) (c3 x7) d := by
  have e : ∀ k : Fin 32, idx_main_v24 (ix2 n d) k = ix3 n k d := fun k =>
    funext fun a => Fin.ext (by match a with | ⟨0, _⟩ => rfl | ⟨1, _⟩ => rfl | ⟨2, _⟩ => rfl)
  unfold vel
  rw [val_main_v24_apply, val_main_cst_0_apply, Ideal.ofBits_def, Ideal.ofBits_zero_f32, zero_add]
  exact Finset.sum_congr rfl fun k _ => by rw [e k, term_at]

/-- The square of one coordinate of the weighted sum. -/
theorem sq_at (n : Fin 500000) (c : Fin 3) :
    val_main_call3_v0 (F := Ideal) x0 x1 x2 x3 x4 x5 x6 x7 (ix2 n c)
      = vel (posRow x0 n) (nbrRow x1 n) (w1 x2) (c1 x3) (w2 x4) (c2 x5) (w3 x6) (c3 x7) c
        * vel (posRow x0 n) (nbrRow x1 n) (w1 x2) (c1 x3) (w2 x4) (c2 x5) (w3 x6) (c3 x7) c := by
  rw [val_main_call3_v0_apply, vel_at, Ideal.mulf_def]

/-- The sum of squares of the weighted sum of particle `n`, from the zero word. -/
theorem sumsq_at (n : Fin 500000) :
    val_main_call3_v1 (F := Ideal) x0 x1 x2 x3 x4 x5 x6 x7 (ix1 n)
      = ∑ c : Fin 3, vel (posRow x0 n) (nbrRow x1 n) (w1 x2) (c1 x3) (w2 x4) (c2 x5) (w3 x6) (c3 x7) c
          * vel (posRow x0 n) (nbrRow x1 n) (w1 x2) (c1 x3) (w2 x4) (c2 x5) (w3 x6) (c3 x7) c := by
  have e : ∀ c : Fin 3, idx_main_call3_v1 (ix1 n) c = ix2 n c := fun c =>
    funext fun a => Fin.ext (by match a with | ⟨0, _⟩ => rfl | ⟨1, _⟩ => rfl)
  rw [val_main_call3_v1_apply, val_main_call3_cst_apply, Ideal.ofBits_def, Ideal.ofBits_zero_f32, zero_add]
  exact Finset.sum_congr rfl fun c _ => by rw [e c, sq_at]

/-- The bounded norm of the weighted sum of particle `n`. -/
theorem vnorm_at (n : Fin 500000) :
    val_main_v27 (F := Ideal) x0 x1 x2 x3 x4 x5 x6 x7 (ix2 n (0 : Fin 1))
      = nrm (vel (posRow x0 n) (nbrRow x1 n) (w1 x2) (c1 x3) (w2 x4) (c2 x5) (w3 x6) (c3 x7)) := by
  have e : idx_main_call3_v2 (ix2 n (0 : Fin 1)) = ix1 n :=
    funext fun a => Fin.ext (by match a with | ⟨0, _⟩ => rfl)
  unfold nrm eps
  rw [val_main_v27_apply, val_main_v25_apply, val_main_call3_v2_apply, e, sumsq_at, val_main_v26_apply,
    val_main_cst_1_apply, Ideal.maximumf_def, Ideal.hostUnary_sqrt_def, Ideal.ofBits_def]

/-- The result at (n, d): the weighted sum divided by its bounded norm, broadcast over the coordinates. -/
theorem out_at (n : Fin 500000) (d : Fin 3) :
    val_main_v29 (F := Ideal) x0 x1 x2 x3 x4 x5 x6 x7 (ix2 n d)
      = rowOut (posRow x0 n) (nbrRow x1 n) (w1 x2) (c1 x3) (w2 x4) (c2 x5) (w3 x6) (c3 x7) d := by
  have e : idx_main_v28 (ix2 n d) = ix2 n (0 : Fin 1) :=
    funext fun a => Fin.ext (by match a with | ⟨0, _⟩ => rfl | ⟨1, _⟩ => rfl)
  rw [val_main_v29_apply, val_main_v28_apply, e, vnorm_at, vel_at, Ideal.hostDivf_def]
  rfl

/-- The reference's result array is the specification's, index by index. -/
theorem ref_is_spec :
    Cert.ReferenceIdeal.Read.val_main_v29 (F := Ideal) x0 x1 x2 x3 x4 x5 x6 x7 = Cert.VelSpec.G x0 x1 x2 x3 x4 x5 x6 x7 := by
  funext i
  obtain ⟨n, d, rfl⟩ : ∃ (n : Fin 500000) (d : Fin 3), i = ix2 n d := ⟨i 0, i 1, eq_ix2 i⟩
  rw [out_at]
  rfl

end

end Cert.ReferenceIdeal.RefValue

end
-- ==== Proof.lean ====
/-
  The kernel and its reference compute one function of the eight argument arrays, as extended reals.

  For each of 500000 particles, the 32 difference vectors to its neighbours are divided by their Euclidean norms
  (bounded below by a small constant), a perceptron 3 → 5 → 5 → 1 with rectified hidden layers gives each normalised
  difference a weight, the weighted normalised differences are summed, and the sum is normalised the same way
  (VelSpec: `G`). The reference spells this with sums over the coordinate axis and contractions with the weight
  matrices (RefIsSpec). The kernel lays a particle's 96 difference coordinates along one row, spells every sum over a
  group of columns as a product with a 0/1 selector matrix and every layer as a product with a block-diagonal matrix,
  all built on the host from identity matrices by Kronecker products and tilings (HostKron, HostTile); read at one
  entry each such product collapses to the short sum, using only x·0 = 0 and x·1 = x, so no finiteness of the inputs
  is needed (SelectorSums, SelectorProducts, VelStages, VelBody). The grid's 250 blocks of 2000 rows tile the result
  (VelArray). Changes of float format are the identity on the extended reals, and the idealisation rewrote nothing, so
  the fourth conjunct is trivial; the three frames are the generated ones.
-/
import proofs.«111744_j22539988370035_2_alg».proof.Defs
import proofs.«111744_j22539988370035_2_alg».proof.Proof.Gen.Kernel
import proofs.«111744_j22539988370035_2_alg».proof.Proof.Gen.Kernel.Skeleton
import proofs.«111744_j22539988370035_2_alg».proof.Proof.Gen.Kernel.Launch
import proofs.«111744_j22539988370035_2_alg».proof.Proof.Gen.Kernel.Points
import proofs.«111744_j22539988370035_2_alg».proof.Proof.Gen.Kernel.Frame
import proofs.«111744_j22539988370035_2_alg».proof.Proof.Gen.KernelIdeal
import proofs.«111744_j22539988370035_2_alg».proof.Proof.Gen.KernelIdeal.Skeleton
import proofs.«111744_j22539988370035_2_alg».proof.Proof.Gen.KernelIdeal.Launch
import proofs.«111744_j22539988370035_2_alg».proof.Proof.Gen.KernelIdeal.Points
import proofs.«111744_j22539988370035_2_alg».proof.Proof.Gen.KernelIdeal.Frame
import proofs.«111744_j22539988370035_2_alg».proof.Proof.Gen.ReferenceIdeal
import proofs.«111744_j22539988370035_2_alg».proof.Proof.Gen.Pre_finite_inputs
import proofs.«111744_j22539988370035_2_alg».proof.Proof.Gen.KernelIdeal.Value
import proofs.«111744_j22539988370035_2_alg».proof.Proof.Gen.ReferenceIdeal.Run
import proofs.«111744_j22539988370035_2_alg».proof.Proof.Gen.ReferenceIdeal.Read
import proofs.«111744_j22539988370035_2_alg».proof.Proof.VelArray
import proofs.«111744_j22539988370035_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the specification of those
    arguments: the kernel by its blocks (VelArray), the reference by its operations read one at a time (RefIsSpec). -/
theorem algebraic : Cert.algebraic_KernelIdeal_ReferenceIdeal := by
  intro m ρ m' ρ' _ hagree
  refine ⟨fun c => Cert.KernelIdeal.Arr.Gm m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_is_spec,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
